-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x13 : Shape := ⟨2, ![100000, 13]⟩
abbrev S2x3200000 : Shape := ⟨2, ![2, 3200000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x13 : S_.BroadcastsInDim S100000x13 (![] : Fin 0 → Fin S100000x13.rank)
  reducesTo_S100000x13_S_d0_1 : S100000x13.ReducesTo [0, 1] S_
  h_S_ : 0 < S_.numel
  bcast_S_S13x64 : S_.BroadcastsInDim S13x64 (![] : Fin 0 → Fin S13x64.rank)
  reducesTo_S13x64_S_d0_1 : S13x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_arg13 : FVec F S64x1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S64x1 .f32 := Host.absf main_arg13
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64x1 .f32) (main_arg12 : FVec F S1 .f32) (main_arg13 : FVec F S64x1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_arg13 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x1 .f32) (main_arg12 : FVec F S1 .f32) (main_arg13 : FVec F S64x1 .f32) (main_v13 : IVec S_ 1) (main_v16 : IVec S13x64 1) : IVec S_ 1 :=
  let main_c_5 : IVec S_ 1 := constantI S_ 1 1#1
  let main_v17 : IVec S_ 1 := (fun x v => Host.reduce IntOp.andi x v reducesTo_S13x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x13 .f32) (main_arg1 : IVec S2x3200000 32) (main_arg2 : FVec F S13x64 .f32) (main_arg3 : FVec F S64 .f32) (main_arg4 : FVec F S13x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x1 .f32) (main_arg12 : FVec F S1 .f32) (main_arg13 : FVec F S64x1 .f32) : IVec S_ 1 :=
  let main_v0 : FVec F S100000x13 .f32 := Host.absf main_arg0
  let main_cst : FVec F S_ .f32 := constant S_ .f32 0x7F800000#32
  let main_v1 : FVec F S100000x13 .f32 := broadcastInDim S100000x13 ![] bcast_S_S100000x13 main_cst
  let main_v2 : IVec S100000x13 1 := cmpf .olt main_v0 main_v1
  let main_c : IVec S_ 1 := constantI S_ 1 1#1
  let main_v3 : IVec S_ 1 := (fun x v => Host.reduce IntOp.andi x v reducesTo_S100000x13_S_d0_1 h_S_) main_v2 main_c
  let main_v4 : FVec F S13x64 .f32 := Host.absf main_arg2
  let main_cst_0 : FVec F S_ .f32 := constant S_ .f32 0x7F800000#32
  let main_v5 : FVec F S13x64 .f32 := broadcastInDim S13x64 ![] bcast_S_S13x64 main_cst_0
  let main_v6 : IVec S13x64 1 := cmpf .olt main_v4 main_v5
  let main_c_1 : IVec S_ 1 := constantI S_ 1 1#1
  let main_v7 : IVec S_ 1 := (fun x v => Host.reduce IntOp.andi x v reducesTo_S13x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S13x64 .f32 := Host.absf main_arg4
  let main_cst_4 : FVec F S_ .f32 := constant S_ .f32 0x7F800000#32
  let main_v15 : FVec F S13x64 .f32 := broadcastInDim S13x64 ![] bcast_S_S13x64 main_cst_4
  let main_v16 : IVec S13x64 1 := cmpf .olt main_v14 main_v15
  fn_part1 (F := F) main_arg5 main_arg6 main_arg7 main_arg8 main_arg9 main_arg10 main_arg11 main_arg12 main_arg13 main_v13 main_v16
-- ==== Kernel.lean ====
abbrev S100000x13 : Shape := ⟨2, ![100000, 13]⟩
abbrev S2x3200000 : Shape := ⟨2, ![2, 3200000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x13 : Shape := ⟨2, ![3200000, 13]⟩
abbrev S1x64 : Shape := ⟨2, ![1, 64]⟩
abbrev S100000x64 : Shape := ⟨2, ![100000, 64]⟩
abbrev S10000x13 : Shape := ⟨2, ![10000, 13]⟩
abbrev S10000x64 : Shape := ⟨2, ![10000, 64]⟩
abbrev S3200000x64 : Shape := ⟨2, ![3200000, 64]⟩
abbrev S1x1 : Shape := ⟨2, ![1, 1]⟩
abbrev S10000x1 : Shape := ⟨2, ![10000, 1]⟩

abbrev nBuf : Space → Nat
  | .hbm => 100
  | .vmem => 36
  | .smem => 0
  | _ => 0

abbrev bufTy : (tb : Table) → Fin (tcTables nBuf tb) → BufTy
  | .hbm, ⟨0, _⟩ => ⟨S100000x13, .f32⟩
  | .hbm, ⟨1, _⟩ => ⟨S2x3200000, .i32⟩
  | .hbm, ⟨2, _⟩ => ⟨S13x64, .f32⟩
  | .hbm, ⟨3, _⟩ => ⟨S64, .f32⟩
  | .hbm, ⟨4, _⟩ => ⟨S13x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x1, .f32⟩
  | .hbm, ⟨12, _⟩ => ⟨S1, .f32⟩
  | .hbm, ⟨13, _⟩ => ⟨S64x1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .f32⟩
  | .hbm, ⟨19, _⟩ => ⟨S3200000, .f32⟩
  | .hbm, ⟨20, _⟩ => ⟨S_, .f32⟩
  | .hbm, ⟨21, _⟩ => ⟨S100000, .f32⟩
  | .hbm, ⟨22, _⟩ => ⟨S3200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x13, .f32⟩
  | .hbm, ⟨40, _⟩ => ⟨S_, .f32⟩
  | .hbm, ⟨41, _⟩ => ⟨S100000x13, .f32⟩
  | .hbm, ⟨42, _⟩ => ⟨S3200000x1, .i32⟩
  | .hbm, ⟨43, _⟩ => ⟨S100000x13, .f32⟩
  | .hbm, ⟨44, _⟩ => ⟨S100000x13, .f32⟩
  | .hbm, ⟨45, _⟩ => ⟨S100000x13, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x64, .f32⟩
  | .hbm, ⟨57, _⟩ => ⟨S_, .f32⟩
  | .hbm, ⟨58, _⟩ => ⟨S100000x64, .f32⟩
  | .hbm, ⟨59, _⟩ => ⟨S3200000x1, .i32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x64, .f32⟩
  | .hbm, ⟨74, _⟩ => ⟨S_, .f32⟩
  | .hbm, ⟨75, _⟩ => ⟨S100000x64, .f32⟩
  | .hbm, ⟨76, _⟩ => ⟨S3200000x1, .i32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S3200000x64, .f32⟩
  | .hbm, ⟨91, _⟩ => ⟨S_, .f32⟩
  | .hbm, ⟨92, _⟩ => ⟨S100000x64, .f32⟩
  | .hbm, ⟨93, _⟩ => ⟨S3200000x1, .i32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S1x1, .f32⟩
  | .hbm, ⟨98, _⟩ => ⟨S100000x1, .f32⟩
  | .hbm, ⟨99, _⟩ => ⟨S100000, .f32⟩
  | .local _ .vmem, ⟨0, _⟩ => ⟨S10000x13, .f32⟩
  | .local _ .vmem, ⟨1, _⟩ => ⟨S10000x13, .f32⟩
  | .local _ .vmem, ⟨2, _⟩ => ⟨S10000x13, .f32⟩
  | .local _ .vmem, ⟨3, _⟩ => ⟨S10000x13, .f32⟩
  | .local _ .vmem, ⟨4, _⟩ => ⟨S13x64, .f32⟩
  | .local _ .vmem, ⟨5, _⟩ => ⟨S1x64, .f32⟩
  | .local _ .vmem, ⟨6, _⟩ => ⟨S13x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x1, .f32⟩
  | .local _ .vmem, ⟨32, _⟩ => ⟨S1x1, .f32⟩
  | .local _ .vmem, ⟨33, _⟩ => ⟨S64x1, .f32⟩
  | .local _ .vmem, ⟨34, _⟩ => ⟨S10000x1, .f32⟩
  | .local _ .vmem, ⟨35, _⟩ => ⟨S10000x1, .f32⟩
  | _, _ => ⟨S100000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x13 : S_.BroadcastsInDim S100000x13 (![] : Fin 0 → Fin S100000x13.rank)
  bcast_S100000x1_S100000x13_0_1 : S100000x1.BroadcastsInDim S100000x13 (![0, 1] : Fin 2 → Fin S100000x13.rank)
  shapeCasts_S64_S1x64 : S64.ShapeCasts S1x64
  inb_S10000x13_S10000x13_0_0 : ∀ a, (![0, 0] : Fin 2 → Nat) a + S10000x13.size a ≤ S10000x13.size a
  h_S10000x13 : 0 < S10000x13.numel
  shapeCasts_S10000x13_S10000x13 : S10000x13.ShapeCasts S10000x13
  bitsLt_bf16_f32 : FTy.bits .bf16 < FTy.bits .f32
  inb_S13x64_S13x64_0_0 : ∀ a, (![0, 0] : Fin 2 → Nat) a + S13x64.size a ≤ S13x64.size a
  h_S13x64 : 0 < S13x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S3200000x1_S3200000_n_0_0_1_wf : ScatterDims.WF S100000 S3200000x1 S3200000 [] [0] [0] 1
  gather_S100000x13_S3200000x1_S3200000x13_1_0_n_n_0_1_113_wf : GatherDims.WF S100000x13 S3200000x1 S3200000x13 [1] [0] [] [0] [] 1 ![1, 13]
  scatter_S100000x13_S3200000x1_S3200000x13_1_0_0_1_wf : ScatterDims.WF S100000x13 S3200000x1 S3200000x13 [1] [0] [0] 1
  dot_S10000x13_S13x64_S10000x64_1_0_0_1_n_n_wf : DotDims.WF S10000x13 S13x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x13.size a ≤ S100000x13.size a
  hwx0_0 : ∀ i : grid0.Coords, EltTy.bits .f32 = 32 ∨ (Rect.block (s := S100000x13) S10000x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x13.size a ≤ S100000x13.size a
  hwx0_1 : ∀ i : grid0.Coords, EltTy.bits .f32 = 32 ∨ (Rect.block (s := S100000x13) S10000x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x64.size a ≤ S13x64.size a
  hwx0_2 : ∀ i : grid0.Coords, EltTy.bits .f32 = 32 ∨ (Rect.block (s := S13x64) S13x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x64.size a ≤ S13x64.size a
  hwx0_4 : ∀ i : grid0.Coords, EltTy.bits .f32 = 32 ∨ (Rect.block (s := S13x64) S13x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x1.size a ≤ S100000x1.size a
  hwx3_5 : ∀ i : grid3.Coords, EltTy.bits .f32 = 32 ∨ (Rect.block (s := S100000x1) S10000x1.size (cc3_transform_5 i) (hinb3_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x13_S3200000x1_S3200000x13_1_0_n_n_0_1_113 : GatherDims S100000x13 S3200000x1 S3200000x13 where
  offsetDims := [1]
  collapsedSliceDims := [0]
  operandBatchingDims := []
  startIndicesBatchingDims := []
  startIndexMap := [0]
  indexVectorDim := 1
  sliceSizes := ![1, 13]
  wf := gather_S100000x13_S3200000x1_S3200000x13_1_0_n_n_0_1_113_wf
def scatter_S100000x13_S3200000x1_S3200000x13_1_0_0_1 : ScatterDims S100000x13 S3200000x1 S3200000x13 where
  updateWindowDims := [1]
  insertedWindowDims := [0]
  scatterDimsToOperandDims := [0]
  indexVectorDim := 1
  wf := scatter_S100000x13_S3200000x1_S3200000x13_1_0_0_1_wf
def dot_S10000x13_S13x64_S10000x64_1_0_0_1_n_n : DotDims S10000x13 S13x64 S10000x64 where
  lhsContracting := [1]
  rhsContracting := [0]
  lhsNonContracting := [0]
  rhsNonContracting := [1]
  lhsBatch := []
  rhsBatch := []
  wf := dot_S10000x13_S13x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v24) S10000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S13x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S13x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S10000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x13 : Shape := ⟨2, ![100000, 13]⟩
abbrev S2x3200000 : Shape := ⟨2, ![2, 3200000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x13 : Shape := ⟨2, ![3200000, 13]⟩
abbrev S100000x64 : Shape := ⟨2, ![100000, 64]⟩
abbrev S1x64 : Shape := ⟨2, ![1, 64]⟩
abbrev S3200000x64 : Shape := ⟨2, ![3200000, 64]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x13, .f32⟩
  | .hbm, ⟨1, _⟩ => ⟨S2x3200000, .i32⟩
  | .hbm, ⟨2, _⟩ => ⟨S13x64, .f32⟩
  | .hbm, ⟨3, _⟩ => ⟨S64, .f32⟩
  | .hbm, ⟨4, _⟩ => ⟨S13x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x1, .f32⟩
  | .hbm, ⟨12, _⟩ => ⟨S1, .f32⟩
  | .hbm, ⟨13, _⟩ => ⟨S64x1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .f32⟩
  | .hbm, ⟨19, _⟩ => ⟨S3200000, .f32⟩
  | .hbm, ⟨20, _⟩ => ⟨S_, .f32⟩
  | .hbm, ⟨21, _⟩ => ⟨S100000, .f32⟩
  | .hbm, ⟨22, _⟩ => ⟨S3200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x13, .f32⟩
  | .hbm, ⟨40, _⟩ => ⟨S_, .f32⟩
  | .hbm, ⟨41, _⟩ => ⟨S100000x13, .f32⟩
  | .hbm, ⟨42, _⟩ => ⟨S3200000x1, .i32⟩
  | .hbm, ⟨43, _⟩ => ⟨S100000x13, .f32⟩
  | .hbm, ⟨44, _⟩ => ⟨S100000x13, .f32⟩
  | .hbm, ⟨45, _⟩ => ⟨S100000x13, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S3200000, .i32⟩
  | .hbm, ⟨57, _⟩ => ⟨S3200000, .i1⟩
  | .hbm, ⟨58, _⟩ => ⟨S_, .i32⟩
  | .hbm, ⟨59, _⟩ => ⟨S3200000, .i32⟩
  | .hbm, ⟨60, _⟩ => ⟨S3200000, .i32⟩
  | .hbm, ⟨61, _⟩ => ⟨S3200000, .i32⟩
  | .hbm, ⟨62, _⟩ => ⟨S3200000x1, .i32⟩
  | .hbm, ⟨63, _⟩ => ⟨S3200000x64, .f32⟩
  | .hbm, ⟨64, _⟩ => ⟨S_, .f32⟩
  | .hbm, ⟨65, _⟩ => ⟨S100000x64, .f32⟩
  | .hbm, ⟨66, _⟩ => ⟨S3200000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S3200000, .i32⟩
  | .hbm, ⟨81, _⟩ => ⟨S3200000, .i1⟩
  | .hbm, ⟨82, _⟩ => ⟨S_, .i32⟩
  | .hbm, ⟨83, _⟩ => ⟨S3200000, .i32⟩
  | .hbm, ⟨84, _⟩ => ⟨S3200000, .i32⟩
  | .hbm, ⟨85, _⟩ => ⟨S3200000, .i32⟩
  | .hbm, ⟨86, _⟩ => ⟨S3200000x1, .i32⟩
  | .hbm, ⟨87, _⟩ => ⟨S3200000x64, .f32⟩
  | .hbm, ⟨88, _⟩ => ⟨S_, .f32⟩
  | .hbm, ⟨89, _⟩ => ⟨S100000x64, .f32⟩
  | .hbm, ⟨90, _⟩ => ⟨S3200000x1, .i32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S_, .i32⟩
  | .hbm, ⟨104, _⟩ => ⟨S3200000, .i32⟩
  | .hbm, ⟨105, _⟩ => ⟨S3200000, .i1⟩
  | .hbm, ⟨106, _⟩ => ⟨S_, .i32⟩
  | .hbm, ⟨107, _⟩ => ⟨S3200000, .i32⟩
  | .hbm, ⟨108, _⟩ => ⟨S3200000, .i32⟩
  | .hbm, ⟨109, _⟩ => ⟨S3200000, .i32⟩
  | .hbm, ⟨110, _⟩ => ⟨S3200000x1, .i32⟩
  | .hbm, ⟨111, _⟩ => ⟨S3200000x64, .f32⟩
  | .hbm, ⟨112, _⟩ => ⟨S_, .f32⟩
  | .hbm, ⟨113, _⟩ => ⟨S100000x64, .f32⟩
  | .hbm, ⟨114, _⟩ => ⟨S3200000x1, .i32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S100000x1, .f32⟩
  | .hbm, ⟨119, _⟩ => ⟨S1x1, .f32⟩
  | .hbm, ⟨120, _⟩ => ⟨S100000x1, .f32⟩
  | .hbm, ⟨121, _⟩ => ⟨S100000x1, .f32⟩
  | .hbm, ⟨122, _⟩ => ⟨S100000x1, .f32⟩
  | .hbm, ⟨123, _⟩ => ⟨S100000x1, .f32⟩
  | .hbm, ⟨124, _⟩ => ⟨S100000, .f32⟩
  | _, _ => ⟨S100000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call2_cst : Ref sig .tc := ⟨.hbm, 100, rfl⟩
abbrev main_call2_v0 : Ref sig .tc := ⟨.hbm, 101, rfl⟩
abbrev main_v69 : Ref sig .tc := ⟨.hbm, 102, rfl⟩
abbrev main_c_11 : Ref sig .tc := ⟨.hbm, 103, rfl⟩
abbrev main_v70 : Ref sig .tc := ⟨.hbm, 104, rfl⟩
abbrev main_v71 : Ref sig .tc := ⟨.hbm, 105, rfl⟩
abbrev main_c_12 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_13 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x13 : S_.BroadcastsInDim S100000x13 (![] : Fin 0 → Fin S100000x13.rank)
  bcast_S100000x1_S100000x13_0_1 : S100000x1.BroadcastsInDim S100000x13 (![0, 1] : Fin 2 → Fin S100000x13.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3200000x1_S3200000_n_0_0_1_wf : ScatterDims.WF S100000 S3200000x1 S3200000 [] [0] [0] 1
  gather_S100000x13_S3200000x1_S3200000x13_1_0_n_n_0_1_113_wf : GatherDims.WF S100000x13 S3200000x1 S3200000x13 [1] [0] [] [0] [] 1 ![1, 13]
  scatter_S100000x13_S3200000x1_S3200000x13_1_0_0_1_wf : ScatterDims.WF S100000x13 S3200000x1 S3200000x13 [1] [0] [0] 1
  dot_S100000x13_S13x64_S100000x64_1_0_0_1_n_n_wf : DotDims.WF S100000x13 S13x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x13_S3200000x1_S3200000x13_1_0_n_n_0_1_113 : GatherDims S100000x13 S3200000x1 S3200000x13 where
  offsetDims := [1]
  collapsedSliceDims := [0]
  operandBatchingDims := []
  startIndicesBatchingDims := []
  startIndexMap := [0]
  indexVectorDim := 1
  sliceSizes := ![1, 13]
  wf := gather_S100000x13_S3200000x1_S3200000x13_1_0_n_n_0_1_113_wf
def scatter_S100000x13_S3200000x1_S3200000x13_1_0_0_1 : ScatterDims S100000x13 S3200000x1 S3200000x13 where
  updateWindowDims := [1]
  insertedWindowDims := [0]
  scatterDimsToOperandDims := [0]
  indexVectorDim := 1
  wf := scatter_S100000x13_S3200000x1_S3200000x13_1_0_0_1_wf
def dot_S100000x13_S13x64_S100000x64_1_0_0_1_n_n : DotDims S100000x13 S13x64 S100000x64 where
  lhsContracting := [1]
  rhsContracting := [0]
  lhsNonContracting := [0]
  rhsNonContracting := [1]
  lhsBatch := []
  rhsBatch := []
  wf := dot_S100000x13_S13x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel's run, with its result named.

  @main is nine segments: five stretches of host operations and the four pallas_calls between them. The buffer contents
  at each segment boundary are a fold from the launch memory: a host stretch applies its operations, a pallas_call replaces
  its arrays by what its write-backs leave. Every weakly fair execution terminates without a fault, and at the end every
  unscoped buffer holds the last boundary's contents — in particular the result buffer, and each argument, which nothing
  writes. This is the launch theorem for a program of several regions applied to the segments as generated; only the
  post is read further than the frame needs: at the result buffer as well as at the arguments.
-/
import proofs.«160314_j64587718197583_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v69) = W9 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v69 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.KernelIdeal.Run

end
-- ==== Proof.LibDense.lean ====
/-
  Dense products read at an index, at the ideal instance.

  For the plain dimension numbers of an `M×K` by `K×N` product (`DotDims.plain M K N`: no batch axis, the left
  operand contracted on its columns, the right on its rows) the operand indices at result index `(r, c)` and
  contraction position `k` are `(r, k)` and `(k, c)`. Hence both the kernel's matrix product into a zero
  accumulator and the host's `dot_general` are, entry by entry, the textbook sum `∑ k, lhs (r, k) · rhs (k, c)` on the
  extended reals. Everything here is generic in `M`, `K`, `N` and in the operands' float formats.
-/
import Idealize.ShloMosaic.PureOps.Ideal.Laws
import Idealize.ShloMosaic.Lib.ValueIdx
import Idealize.ShloMosaic.Lib.Pipeline.Value

noncomputable section

namespace LibDense

open Idealize.ShloMosaic Idealize.ShloMosaic.ValueIdx

variable {M K N : Nat} {φ₁ φ₂ : FTy}

/-- The one-axis contraction index of the plain product, as a number below `K`. -/
abbrev ce (M K N : Nat) : (DotDims.plain M K N).contr.Idx ≃ Fin K := contrEquiv1 (DotDims.plain M K N) K rfl rfl

/-- The left operand is read at row `r`, column `k`. -/
theorem plain_lhsIdx (r : Fin M) (c : Fin N) (k : Fin K) :
    (DotDims.plain M K N).lhsIdx (ix2 r c) ((ce M K N).symm k) = ix2 r k := by
  funext a
  apply Fin.ext
  match a with
  | ⟨0, h0⟩ =>
    have hb : ¬(⟨0, h0⟩ : Fin (⟨2, ![M, K]⟩ : Shape).rank) ∈ (DotDims.plain M K N).lhsBatch := List.not_mem_nil
    have hn : (⟨0, h0⟩ : Fin (⟨2, ![M, K]⟩ : Shape).rank) ∈ (DotDims.plain M K N).lhsNonContracting :=
      List.mem_singleton.mpr rfl
    unfold DotDims.lhsIdx
    rw [dif_neg hb, dif_pos hn]
    rfl
  | ⟨1, _⟩ =>
    exact ((DotDims.plain M K N).lhsIdx_val_of_single (cl := 1) rfl (ix2 r c) _).trans
      (contrEquiv1_symm_val (DotDims.plain M K N) K rfl rfl k)

/-- The right operand is read at row `k`, column `c`. -/
theorem plain_rhsIdx (r : Fin M) (c : Fin N) (k : Fin K) :
    (DotDims.plain M K N).rhsIdx (ix2 r c) ((ce M K N).symm k) = ix2 k c := by
  funext a
  apply Fin.ext
  match a with
  | ⟨0, _⟩ =>
    exact ((DotDims.plain M K N).rhsIdx_val_of_single (cr := 0) rfl (ix2 r c) _).trans
      (contrEquiv1_symm_val (DotDims.plain M K N) K rfl rfl k)
  | ⟨1, h1⟩ =>
    have hb : ¬(⟨1, h1⟩ : Fin (⟨2, ![K, N]⟩ : Shape).rank) ∈ (DotDims.plain M K N).rhsBatch := List.not_mem_nil
    have hn : (⟨1, h1⟩ : Fin (⟨2, ![K, N]⟩ : Shape).rank) ∈ (DotDims.plain M K N).rhsNonContracting :=
      List.mem_singleton.mpr rfl
    unfold DotDims.rhsIdx
    rw [dif_neg hb, dif_pos hn]
    rfl

/-- The contraction sum of the plain product, re-indexed by `k < K`. -/
theorem plain_sum (lhs : FVec Ideal ⟨2, ![M, K]⟩ φ₁) (rhs : FVec Ideal ⟨2, ![K, N]⟩ φ₂) (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (ce M K N).symm]
  refine Finset.sum_congr rfl fun k _ => ?_
  rw [plain_lhsIdx, plain_rhsIdx]

/-- A matrix product accumulated into zero, at `(r, c)`. -/
theorem matmul_plain_zero_apply (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, plain_sum]

/-- The host's `dot_general`, whatever its schedule key, at `(r, c)`. -/
theorem dotGeneral_plain_apply (prec : Option ContractPrecision) (sched : HostSchedule) (lhs : FVec Ideal ⟨2, ![M, K]⟩ φ₁)
    (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) := by
  rw [Ideal.dotGeneral_apply, plain_sum]

/-! ## A bias row broadcast along the rows -/

section Rows
variable {α : Type}

/-- The host's `broadcast_in_dim` of a `[1, N]` row to `[M, N]`, at `(r, c)`: the row's entry `c`. -/
theorem rowBroadcastInDim_apply (h : (⟨2, ![1, N]⟩ : Shape).BroadcastsInDim ⟨2, ![M, N]⟩ ![0, 1])
    (b : (⟨2, ![1, N]⟩ : Shape).Idx → α) (r : Fin M) (c : Fin N) :
    broadcastInDim ⟨2, ![M, N]⟩ ![0, 1] h b (ix2 r c) = b (ix2 0 c) :=
  broadcastInDim_apply _ h b (ix2 r c) (ix2 0 c) (fun a => match a with
    | ⟨0, _⟩ => by show (0 : Nat) = if (1 : Nat) = 1 then 0 else r.val; rw [if_pos rfl]
    | ⟨1, _⟩ => by
      show c.val = if N = 1 then 0 else c.val
      split
      · have := c.isLt; omega
      · rfl)

/-- The kernel's `vector.broadcast` of a `[1, N]` row to `[M, N]`, at `(r, c)`: the row's entry `c`. -/
theorem rowBroadcastTo_apply (h : (⟨2, ![1, N]⟩ : Shape).Broadcasts ⟨2, ![M, N]⟩)
    (b : (⟨2, ![1, N]⟩ : Shape).Idx → α) (r : Fin M) (c : Fin N) :
    broadcastTo ⟨2, ![M, N]⟩ b h (ix2 r c) = b (ix2 0 c) :=
  broadcastTo_apply b h (ix2 r c) (ix2 0 c) (fun a => match a with
    | ⟨0, _⟩ => by show (0 : Nat) = if (1 : Nat) = 1 then 0 else r.val; rw [if_pos rfl]
    | ⟨1, _⟩ => by
      show c.val = if N = 1 then 0 else c.val
      split
      · have := c.isLt; omega
      · rfl)

/-- A length-`N` vector recast as a `[1, N]` row is the vector broadcast along axis 1: both read entry `c` at `(0, c)`
    (the bias as the kernel's caller reshapes it, and as the host's reference broadcasts it). -/
theorem rowOfVec_eq (h : (⟨1, ![N]⟩ : Shape).ShapeCasts ⟨2, ![1, N]⟩)
    (h' : (⟨1, ![N]⟩ : Shape).BroadcastsInDim ⟨2, ![1, N]⟩ ![1]) (b : (⟨1, ![N]⟩ : Shape).Idx → α) :
    shapeCast ⟨2, ![1, N]⟩ b h = broadcastInDim ⟨2, ![1, N]⟩ ![1] h' b := by
  funext j
  obtain ⟨r, c, rfl⟩ : ∃ (r : Fin 1) (c : Fin N), j = ix2 r c := ⟨j 0, j 1, eq_ix2 j⟩
  rw [shapeCast_apply b h (ix2 r c) (ix1 c) (by
      rw [Shape.rowMajor_val_one, Shape.rowMajor_val_two]
      show c.val = r.val * N + c.val
      have := r.isLt; have hr : r.val = 0 := by omega
      rw [hr]; omega),
    broadcastInDim_apply ![1] h' b (ix2 r c) (ix1 c) (fun a => match a with
      | ⟨0, _⟩ => by
        show c.val = if N = 1 then 0 else c.val
        split
        · have := c.isLt; omega
        · rfl)]

end Rows

/-! ## Two products and a bias row: the affine part of a layer -/

/-- The host's spelling: `a · Wl`, plus the bias row on every row, plus `x · Wr`, on whole arrays. -/
def hostAffine (h : (⟨2, ![1, N]⟩ : Shape).BroadcastsInDim ⟨2, ![M, N]⟩ ![0, 1])
    (a x : FVec Ideal ⟨2, ![M, K]⟩ .f32) (Wl : FVec Ideal ⟨2, ![K, N]⟩ .f32) (b : FVec Ideal ⟨2, ![1, N]⟩ .f32)
    (Wr : FVec Ideal ⟨2, ![K, N]⟩ .f32) : FVec Ideal ⟨2, ![M, N]⟩ .f32 :=
  addf (addf (Host.dotGeneral (DotDims.plain M K N) none a Wl) (broadcastInDim ⟨2, ![M, N]⟩ ![0, 1] h b))
    (Host.dotGeneral (DotDims.plain M K N) none x Wr)

/-- Entry `(r, c)` of the host's spelling. -/
theorem hostAffine_apply (h : (⟨2, ![1, N]⟩ : Shape).BroadcastsInDim ⟨2, ![M, N]⟩ ![0, 1])
    (a x : FVec Ideal ⟨2, ![M, K]⟩ .f32) (Wl : FVec Ideal ⟨2, ![K, N]⟩ .f32) (b : FVec Ideal ⟨2, ![1, N]⟩ .f32)
    (Wr : FVec Ideal ⟨2, ![K, N]⟩ .f32) (r : Fin M) (c : Fin N) :
    hostAffine h a x Wl b Wr (ix2 r c)
      = ((∑ k : Fin K, a (ix2 r k) * Wl (ix2 k c)) + b (ix2 0 c)) + ∑ k : Fin K, x (ix2 r k) * Wr (ix2 k c) := by
  show (FloatOps.dotGeneral (DotDims.plain M K N) none .single a Wl (ix2 r c)
      + broadcastInDim ⟨2, ![M, N]⟩ ![0, 1] h b (ix2 r c))
      + FloatOps.dotGeneral (DotDims.plain M K N) none .single x Wr (ix2 r c) = _
  rw [dotGeneral_plain_apply, dotGeneral_plain_apply, rowBroadcastInDim_apply]

/-- The kernel body's spelling on a block of `M` rows — both products accumulated into zero and added, then the
    bias row — has the same entry `(r, c)`: addition on the extended reals is commutative and associative, so the
    bias may be added before or after the second product. -/
theorem blockAffine_apply (h : (⟨2, ![1, N]⟩ : Shape).Broadcasts ⟨2, ![M, N]⟩)
    (a x : FVec Ideal ⟨2, ![M, K]⟩ φ₁) (Wl Wr : FVec Ideal ⟨2, ![K, N]⟩ φ₂) (b : FVec Ideal ⟨2, ![1, N]⟩ .f32)
    (r : Fin M) (c : Fin N) :
    (FloatOps.matmul (DotDims.plain M K N) none a Wl (constant ⟨2, ![M, N]⟩ .f32 0x00000000#32) (ix2 r c)
        + FloatOps.matmul (DotDims.plain M K N) none x Wr (constant ⟨2, ![M, N]⟩ .f32 0x00000000#32) (ix2 r c))
        + broadcastTo ⟨2, ![M, N]⟩ b h (ix2 r c)
      = ((∑ k : Fin K, a (ix2 r k) * Wl (ix2 k c)) + b (ix2 0 c)) + ∑ k : Fin K, x (ix2 r k) * Wr (ix2 k c) := by
  rw [matmul_plain_zero_apply, matmul_plain_zero_apply, rowBroadcastTo_apply, add_right_comm]

end LibDense

end
-- ==== Proof.Region0.lean ====
/-
  The first layer's dense part, as the kernel computes it.

  The pallas_call runs over ten row blocks of 10000 nodes. At block `t` its body multiplies the block's rows
  of the neighbour means and of the node features by the two 13×64 weight matrices, adds the two products and the bias
  row, and takes the maximum with zero; it writes rows `10000·t … 10000·t + 9999` of the result. The blocks tile the
  100000 rows, so after the call the result array is ONE function of the arrays the call found: entry `(r, c)` is
  `max (∑ₖ a(r,k)·Wl(k,c) + b(0,c) + ∑ₖ x(r,k)·Wr(k,c)) 0` — the layer as the host would spell it (`layer`).
-/
import proofs.«160314_j64587718197583_1_alg».proof.Proof.Gen.KernelIdeal.Frame
import proofs.«160314_j64587718197583_1_alg».proof.Proof.LibDense
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx LibDense
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays, in the host's spelling: the affine part, then the maximum with zero. -/
def layer (a x : FVec Ideal ⟨2, ![100000, 13]⟩ .f32) (Wl : FVec Ideal ⟨2, ![13, 64]⟩ .f32)
    (b : FVec Ideal ⟨2, ![1, 64]⟩ .f32) (Wr : FVec Ideal ⟨2, ![13, 64]⟩ .f32) : FVec Ideal ⟨2, ![100000, 64]⟩ .f32 :=
  maximumf (hostAffine (by decide) a x Wl b Wr)
    (broadcastInDim ⟨2, ![100000, 64]⟩ (![] : Fin 0 → Fin 2) (by decide) (constant ⟨0, ![]⟩ .f32 0x00000000#32))

/-- Entry `(r, c)` of the layer. -/
theorem layer_apply (a x : FVec Ideal ⟨2, ![100000, 13]⟩ .f32) (Wl : FVec Ideal ⟨2, ![13, 64]⟩ .f32)
    (b : FVec Ideal ⟨2, ![1, 64]⟩ .f32) (Wr : FVec Ideal ⟨2, ![13, 64]⟩ .f32) (r : Fin 100000) (c : Fin 64) :
    layer a x Wl b Wr (ix2 r c)
      = max (((∑ k : Fin 13, a (ix2 r k) * Wl (ix2 k c)) + b (ix2 0 c)) + ∑ k : Fin 13, x (ix2 r k) * Wr (ix2 k c)) 0 := by
  show max (hostAffine _ a x Wl b Wr (ix2 r c)) (Ideal.ofBits .f32 0x00000000#32) = _
  rw [hostAffine_apply, Ideal.ofBits_zero_f32]

/-- Entry `(r, c)` of what the body stores, from the blocks it loaded. -/
theorem pay_apply (v0 v3 : Vec Ideal S10000x13 .f32) (v5 v7 : Vec Ideal S13x64 .f32) (v12 : Vec Ideal S1x64 .f32)
    (r : Fin 10000) (c : Fin 64) :
    k0_pay1 v0 v3 v5 v7 v12 (ix2 r c)
      = max (((∑ k : Fin 13, v0 (ix2 r k) * v5 (ix2 k c)) + v12 (ix2 0 c)) + ∑ k : Fin 13, v3 (ix2 r k) * v7 (ix2 k c)) 0 := by
  unfold k0_pay1
  simp only [shapeCast_self]
  show max ((FloatOps.matmul (F := Ideal) (DotDims.plain 10000 13 64) none (φ₁ := .bf16) (φ₂ := .bf16) v0 v5
        (constant ⟨2, ![10000, 64]⟩ .f32 0x00000000#32) (ix2 r c)
      + FloatOps.matmul (F := Ideal) (DotDims.plain 10000 13 64) none (φ₁ := .bf16) (φ₂ := .bf16) v3 v7
        (constant ⟨2, ![10000, 64]⟩ .f32 0x00000000#32) (ix2 r c))
      + broadcastTo ⟨2, ![10000, 64]⟩ v12 broadcasts_S1x64_S10000x64 (ix2 r c)) (Ideal.ofBits .f32 0x00000000#32) = _
  rw [blockAffine_apply, Ideal.ofBits_zero_f32]

/-- The printed index maps, decided over the grid: the two row-blocked inputs and the output sit at block row `t`,
    column block 0; the weights and the bias row are whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of block `t` is row `10000·t + r` of the array. -/
def row (t : Fin cfg0.N) (r : Fin 10000) : Fin 100000 :=
  ⟨t.val * 10000 + r.val, by
    have h : t.val < 10 := lt_of_lt_of_eq t.isLt (show cfg0.N = 10 from N_0)
    have := r.isLt; omega⟩

theorem emb5 (t : Fin cfg0.N) (r : Fin 10000) (c : Fin 64) :
    ((cfg0.win 5).blk t).view.emb (ix2 r c : S10000x64.Idx) = (ix2 (row t r) c : S100000x64.Idx) := by
  obtain ⟨e0, e1, e2, e3, e4, e5, e6, e7, e8, e9, e10, e11⟩ := idx_facts t
  funext a; apply Fin.ext
  match a with
  | ⟨0, _⟩ => show win0_5.index t (0 : Fin 2) * 10000 + 1 * r.val = t.val * 10000 + r.val; omega
  | ⟨1, _⟩ => show win0_5.index t (1 : Fin 2) * 64 + 1 * c.val = c.val; omega

theorem blk0 (c : Dev nD) (t : Fin cfg0.N) (r : Fin 10000) (k : Fin 13) :
    iblk0 V c 0 t (ix2 r k : S10000x13.Idx) = (V c main_v24 : S100000x13.Idx → EReal) (ix2 (row t r) k) := by
  obtain ⟨e0, e1, e2, e3, e4, e5, e6, e7, e8, e9, e10, e11⟩ := idx_facts t
  show V c main_v24 (((cfg0.win 0).blk t).view.emb (ix2 r k : S10000x13.Idx)) = _
  refine congrArg _ (funext fun a => Fin.ext ?_)
  match a with
  | ⟨0, _⟩ => show win0_0.index t (0 : Fin 2) * 10000 + 1 * r.val = t.val * 10000 + r.val; omega
  | ⟨1, _⟩ => show win0_0.index t (1 : Fin 2) * 13 + 1 * k.val = k.val; omega

theorem blk1 (c : Dev nD) (t : Fin cfg0.N) (r : Fin 10000) (k : Fin 13) :
    iblk0 V c 1 t (ix2 r k : S10000x13.Idx) = (V c main_arg0 : S100000x13.Idx → EReal) (ix2 (row t r) k) := by
  obtain ⟨e0, e1, e2, e3, e4, e5, e6, e7, e8, e9, e10, e11⟩ := idx_facts t
  show V c main_arg0 (((cfg0.win 1).blk t).view.emb (ix2 r k : S10000x13.Idx)) = _
  refine congrArg _ (funext fun a => Fin.ext ?_)
  match a with
  | ⟨0, _⟩ => show win0_1.index t (0 : Fin 2) * 10000 + 1 * r.val = t.val * 10000 + r.val; omega
  | ⟨1, _⟩ => show win0_1.index t (1 : Fin 2) * 13 + 1 * k.val = k.val; omega

theorem blk2 (c : Dev nD) (t : Fin cfg0.N) (k : Fin 13) (j : Fin 64) :
    iblk0 V c 2 t (ix2 k j : S13x64.Idx) = (V c main_arg2 : S13x64.Idx → EReal) (ix2 k j) := by
  obtain ⟨e0, e1, e2, e3, e4, e5, e6, e7, e8, e9, e10, e11⟩ := idx_facts t
  show V c main_arg2 (((cfg0.win 2).blk t).view.emb (ix2 k j : S13x64.Idx)) = _
  refine congrArg _ (funext fun a => Fin.ext ?_)
  match a with
  | ⟨0, _⟩ => show win0_2.index t (0 : Fin 2) * 13 + 1 * k.val = k.val; omega
  | ⟨1, _⟩ => show win0_2.index t (1 : Fin 2) * 64 + 1 * j.val = j.val; omega

theorem blk3 (c : Dev nD) (t : Fin cfg0.N) (j : Fin 64) :
    iblk0 V c 3 t (ix2 (0 : Fin 1) j : S1x64.Idx) = (V c main_v25 : S1x64.Idx → EReal) (ix2 0 j) := by
  obtain ⟨e0, e1, e2, e3, e4, e5, e6, e7, e8, e9, e10, e11⟩ := idx_facts t
  show V c main_v25 (((cfg0.win 3).blk t).view.emb (ix2 (0 : Fin 1) j : S1x64.Idx)) = _
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * j.val = j.val; omega

theorem blk4 (c : Dev nD) (t : Fin cfg0.N) (k : Fin 13) (j : Fin 64) :
    iblk0 V c 4 t (ix2 k j : S13x64.Idx) = (V c main_arg4 : S13x64.Idx → EReal) (ix2 k j) := by
  obtain ⟨e0, e1, e2, e3, e4, e5, e6, e7, e8, e9, e10, e11⟩ := idx_facts t
  show V c main_arg4 (((cfg0.win 4).blk t).view.emb (ix2 k j : S13x64.Idx)) = _
  refine congrArg _ (funext fun a => Fin.ext ?_)
  match a with
  | ⟨0, _⟩ => show win0_4.index t (0 : Fin 2) * 13 + 1 * k.val = k.val; omega
  | ⟨1, _⟩ => show win0_4.index t (1 : Fin 2) * 64 + 1 * j.val = j.val; omega

/-- WHAT POINT `t` WRITES BACK is block `t` of the layer of the arrays the call found. -/
theorem flushed_eq (c : Dev nD) (t : Fin cfg0.N) :
    (dat0 V c).flushed 5 t = ((cfg0.win 5).blk t).view.read (Elt Ideal)
      (layer (V c main_v24) (V c main_arg0) (V c main_arg2) (V c main_v25) (V c main_arg4)) := by
  show (cfg0.win 5).cut (grid0.coords t) ((dat0 V c).after 5 t) = _
  rw [after0_5]
  unfold out0_5
  rw [View.canon_unit_zero hz]
  simp only [View.ld_unit_zero (S := S10000x13) hz, View.ld_unit_zero (S := S13x64) hz, View.ld_unit_zero (S := S1x64) hz]
  funext j
  obtain ⟨r, cc, rfl⟩ : ∃ (r : Fin 10000) (cc : Fin 64), j = ix2 r cc := ⟨j 0, j 1, eq_ix2 j⟩
  show k0_pay1 (iblk0 V c 0 t) (iblk0 V c 1 t) (iblk0 V c 2 t) (iblk0 V c 4 t) (iblk0 V c 3 t) (ix2 r cc)
    = layer (V c main_v24) (V c main_arg0) (V c main_arg2) (V c main_v25) (V c main_arg4)
        (((cfg0.win 5).blk t).view.emb (ix2 r cc : S10000x64.Idx))
  refine (pay_apply _ _ _ _ _ r cc).trans ?_
  rw [emb5]
  refine Eq.trans ?_ (layer_apply _ _ _ _ _ (row t r) cc).symm
  refine congrArg (fun z : EReal => max z 0) ?_
  refine congrArg₂ (· + ·) (congrArg₂ (· + ·) (Finset.sum_congr rfl fun k _ => ?_) ?_) (Finset.sum_congr rfl fun k _ => ?_)
  · exact congrArg₂ (· * ·) (blk0 V c t r k) (blk2 V c t k cc)
  · exact blk3 V c t cc
  · exact congrArg₂ (· * ·) (blk1 V c t r k) (blk4 V c t k cc)

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- The ten blocks tile the rows: row `R` is in the block of point `R / 10000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, lt_of_lt_of_eq (by omega : (i 0).val / 10000 < 10) (show cfg0.N = 10 from N_0).symm⟩
  obtain ⟨e0, e1, e2, e3, e4, e5, e6, e7, e8, e9, e10, e11⟩ := idx_facts t
  have ht : t.val = (i 0).val / 10000 := rfl
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE ARRAY after the call: the layer of the arrays the call found. -/
theorem final (c : Dev nD) : (dat0 V c).arrAt 5 cfg0.N
    = layer (V c main_v24) (V c main_arg0) (V c main_arg2) (V c main_v25) (V c main_arg4) :=
  (dat0 V c).arrAt_eq_of_cover 5 _ (fun t _ => flushed_eq V c t) cover

end Cert.KernelIdeal.Region0

end
-- ==== Proof.Region1.lean ====
/-
  The second layer's dense part, as the kernel computes it.

  The pallas_call runs over ten row blocks of 10000 nodes. At block `t` its body multiplies the block's rows
  of the neighbour means and of the node features by the two 64×64 weight matrices, adds the two products and the bias
  row, and takes the maximum with zero; it writes rows `10000·t … 10000·t + 9999` of the result. The blocks tile the
  100000 rows, so after the call the result array is ONE function of the arrays the call found: entry `(r, c)` is
  `max (∑ₖ a(r,k)·Wl(k,c) + b(0,c) + ∑ₖ x(r,k)·Wr(k,c)) 0` — the layer as the host would spell it (`layer`).
-/
import proofs.«160314_j64587718197583_1_alg».proof.Proof.Gen.KernelIdeal.Frame
import proofs.«160314_j64587718197583_1_alg».proof.Proof.LibDense
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx LibDense
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays, in the host's spelling: the affine part, then the maximum with zero. -/
def layer (a x : FVec Ideal ⟨2, ![100000, 64]⟩ .f32) (Wl : FVec Ideal ⟨2, ![64, 64]⟩ .f32)
    (b : FVec Ideal ⟨2, ![1, 64]⟩ .f32) (Wr : FVec Ideal ⟨2, ![64, 64]⟩ .f32) : FVec Ideal ⟨2, ![100000, 64]⟩ .f32 :=
  maximumf (hostAffine (by decide) a x Wl b Wr)
    (broadcastInDim ⟨2, ![100000, 64]⟩ (![] : Fin 0 → Fin 2) (by decide) (constant ⟨0, ![]⟩ .f32 0x00000000#32))

/-- Entry `(r, c)` of the layer. -/
theorem layer_apply (a x : FVec Ideal ⟨2, ![100000, 64]⟩ .f32) (Wl : FVec Ideal ⟨2, ![64, 64]⟩ .f32)
    (b : FVec Ideal ⟨2, ![1, 64]⟩ .f32) (Wr : FVec Ideal ⟨2, ![64, 64]⟩ .f32) (r : Fin 100000) (c : Fin 64) :
    layer a x Wl b Wr (ix2 r c)
      = max (((∑ k : Fin 64, a (ix2 r k) * Wl (ix2 k c)) + b (ix2 0 c)) + ∑ k : Fin 64, x (ix2 r k) * Wr (ix2 k c)) 0 := by
  show max (hostAffine _ a x Wl b Wr (ix2 r c)) (Ideal.ofBits .f32 0x00000000#32) = _
  rw [hostAffine_apply, Ideal.ofBits_zero_f32]

/-- Entry `(r, c)` of what the body stores, from the blocks it loaded. -/
theorem pay_apply (v0 v3 : Vec Ideal S10000x64 .f32) (v5 v7 : Vec Ideal S64x64 .f32) (v12 : Vec Ideal S1x64 .f32)
    (r : Fin 10000) (c : Fin 64) :
    k1_pay1 v0 v3 v5 v7 v12 (ix2 r c)
      = max (((∑ k : Fin 64, v0 (ix2 r k) * v5 (ix2 k c)) + v12 (ix2 0 c)) + ∑ k : Fin 64, v3 (ix2 r k) * v7 (ix2 k c)) 0 := by
  unfold k1_pay1
  simp only [shapeCast_self]
  show max ((FloatOps.matmul (F := Ideal) (DotDims.plain 10000 64 64) none (φ₁ := .bf16) (φ₂ := .bf16) v0 v5
        (constant ⟨2, ![10000, 64]⟩ .f32 0x00000000#32) (ix2 r c)
      + FloatOps.matmul (F := Ideal) (DotDims.plain 10000 64 64) none (φ₁ := .bf16) (φ₂ := .bf16) v3 v7
        (constant ⟨2, ![10000, 64]⟩ .f32 0x00000000#32) (ix2 r c))
      + broadcastTo ⟨2, ![10000, 64]⟩ v12 broadcasts_S1x64_S10000x64 (ix2 r c)) (Ideal.ofBits .f32 0x00000000#32) = _
  rw [blockAffine_apply, Ideal.ofBits_zero_f32]

/-- The printed index maps, decided over the grid: the two row-blocked inputs and the output sit at block row `t`,
    column block 0; the weights and the bias row are whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of block `t` is row `10000·t + r` of the array. -/
def row (t : Fin cfg1.N) (r : Fin 10000) : Fin 100000 :=
  ⟨t.val * 10000 + r.val, by
    have h : t.val < 10 := lt_of_lt_of_eq t.isLt (show cfg1.N = 10 from N_1)
    have := r.isLt; omega⟩

theorem emb5 (t : Fin cfg1.N) (r : Fin 10000) (c : Fin 64) :
    ((cfg1.win 5).blk t).view.emb (ix2 r c : S10000x64.Idx) = (ix2 (row t r) c : S100000x64.Idx) := by
  obtain ⟨e0, e1, e2, e3, e4, e5, e6, e7, e8, e9, e10, e11⟩ := idx_facts t
  funext a; apply Fin.ext
  match a with
  | ⟨0, _⟩ => show win1_5.index t (0 : Fin 2) * 10000 + 1 * r.val = t.val * 10000 + r.val; omega
  | ⟨1, _⟩ => show win1_5.index t (1 : Fin 2) * 64 + 1 * c.val = c.val; omega

theorem blk0 (c : Dev nD) (t : Fin cfg1.N) (r : Fin 10000) (k : Fin 64) :
    iblk1 V c 0 t (ix2 r k : S10000x64.Idx) = (V c main_v38 : S100000x64.Idx → EReal) (ix2 (row t r) k) := by
  obtain ⟨e0, e1, e2, e3, e4, e5, e6, e7, e8, e9, e10, e11⟩ := idx_facts t
  show V c main_v38 (((cfg1.win 0).blk t).view.emb (ix2 r k : S10000x64.Idx)) = _
  refine congrArg _ (funext fun a => Fin.ext ?_)
  match a with
  | ⟨0, _⟩ => show win1_0.index t (0 : Fin 2) * 10000 + 1 * r.val = t.val * 10000 + r.val; omega
  | ⟨1, _⟩ => show win1_0.index t (1 : Fin 2) * 64 + 1 * k.val = k.val; omega

theorem blk1 (c : Dev nD) (t : Fin cfg1.N) (r : Fin 10000) (k : Fin 64) :
    iblk1 V c 1 t (ix2 r k : S10000x64.Idx) = (V c main_v26 : S100000x64.Idx → EReal) (ix2 (row t r) k) := by
  obtain ⟨e0, e1, e2, e3, e4, e5, e6, e7, e8, e9, e10, e11⟩ := idx_facts t
  show V c main_v26 (((cfg1.win 1).blk t).view.emb (ix2 r k : S10000x64.Idx)) = _
  refine congrArg _ (funext fun a => Fin.ext ?_)
  match a with
  | ⟨0, _⟩ => show win1_1.index t (0 : Fin 2) * 10000 + 1 * r.val = t.val * 10000 + r.val; omega
  | ⟨1, _⟩ => show win1_1.index t (1 : Fin 2) * 64 + 1 * k.val = k.val; omega

theorem blk2 (c : Dev nD) (t : Fin cfg1.N) (k : Fin 64) (j : Fin 64) :
    iblk1 V c 2 t (ix2 k j : S64x64.Idx) = (V c main_arg5 : S64x64.Idx → EReal) (ix2 k j) := by
  obtain ⟨e0, e1, e2, e3, e4, e5, e6, e7, e8, e9, e10, e11⟩ := idx_facts t
  show V c main_arg5 (((cfg1.win 2).blk t).view.emb (ix2 k j : S64x64.Idx)) = _
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * j.val = j.val; omega

theorem blk3 (c : Dev nD) (t : Fin cfg1.N) (j : Fin 64) :
    iblk1 V c 3 t (ix2 (0 : Fin 1) j : S1x64.Idx) = (V c main_v39 : S1x64.Idx → EReal) (ix2 0 j) := by
  obtain ⟨e0, e1, e2, e3, e4, e5, e6, e7, e8, e9, e10, e11⟩ := idx_facts t
  show V c main_v39 (((cfg1.win 3).blk t).view.emb (ix2 (0 : Fin 1) j : S1x64.Idx)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * j.val = j.val; omega

theorem blk4 (c : Dev nD) (t : Fin cfg1.N) (k : Fin 64) (j : Fin 64) :
    iblk1 V c 4 t (ix2 k j : S64x64.Idx) = (V c main_arg7 : S64x64.Idx → EReal) (ix2 k j) := by
  obtain ⟨e0, e1, e2, e3, e4, e5, e6, e7, e8, e9, e10, e11⟩ := idx_facts t
  show V c main_arg7 (((cfg1.win 4).blk t).view.emb (ix2 k j : S64x64.Idx)) = _
  refine congrArg _ (funext fun a => Fin.ext ?_)
  match a with
  | ⟨0, _⟩ => show win1_4.index t (0 : Fin 2) * 64 + 1 * k.val = k.val; omega
  | ⟨1, _⟩ => show win1_4.index t (1 : Fin 2) * 64 + 1 * j.val = j.val; omega

/-- WHAT POINT `t` WRITES BACK is block `t` of the layer of the arrays the call found. -/
theorem flushed_eq (c : Dev nD) (t : Fin cfg1.N) :
    (dat1 V c).flushed 5 t = ((cfg1.win 5).blk t).view.read (Elt Ideal)
      (layer (V c main_v38) (V c main_v26) (V c main_arg5) (V c main_v39) (V c main_arg7)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  obtain ⟨r, cc, rfl⟩ : ∃ (r : Fin 10000) (cc : Fin 64), j = ix2 r cc := ⟨j 0, j 1, eq_ix2 j⟩
  show k1_pay1 (iblk1 V c 0 t) (iblk1 V c 1 t) (iblk1 V c 2 t) (iblk1 V c 4 t) (iblk1 V c 3 t) (ix2 r cc)
    = layer (V c main_v38) (V c main_v26) (V c main_arg5) (V c main_v39) (V c main_arg7)
        (((cfg1.win 5).blk t).view.emb (ix2 r cc : S10000x64.Idx))
  refine (pay_apply _ _ _ _ _ r cc).trans ?_
  rw [emb5]
  refine Eq.trans ?_ (layer_apply _ _ _ _ _ (row t r) cc).symm
  refine congrArg (fun z : EReal => max z 0) ?_
  refine congrArg₂ (· + ·) (congrArg₂ (· + ·) (Finset.sum_congr rfl fun k _ => ?_) ?_) (Finset.sum_congr rfl fun k _ => ?_)
  · exact congrArg₂ (· * ·) (blk0 V c t r k) (blk2 V c t k cc)
  · exact blk3 V c t cc
  · exact congrArg₂ (· * ·) (blk1 V c t r k) (blk4 V c t k cc)

/-- An index of the result array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v40).slice (win1_5.rect t)).set ↔ _
  rw [View.set_slice_whole, Rect.mem_set_unit]
  exact Iff.rfl

/-- The ten blocks tile the rows: row `R` is in the block of point `R / 10000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 10000, lt_of_lt_of_eq (by omega : (i 0).val / 10000 < 10) (show cfg1.N = 10 from N_1).symm⟩
  obtain ⟨e0, e1, e2, e3, e4, e5, e6, e7, e8, e9, e10, e11⟩ := idx_facts t
  have ht : t.val = (i 0).val / 10000 := rfl
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE ARRAY after the call: the layer of the arrays the call found. -/
theorem final (c : Dev nD) : (dat1 V c).arrAt 5 cfg1.N
    = layer (V c main_v38) (V c main_v26) (V c main_arg5) (V c main_v39) (V c main_arg7) :=
  (dat1 V c).arrAt_eq_of_cover 5 _ (fun t _ => flushed_eq V c t) cover

end Cert.KernelIdeal.Region1

end
-- ==== Proof.Region2.lean ====
/-
  The third layer's dense part, as the kernel computes it.

  The pallas_call runs over ten row blocks of 10000 nodes. At block `t` its body multiplies the block's rows
  of the neighbour means and of the node features by the two 64×64 weight matrices, adds the two products and the bias
  row, and takes the maximum with zero; it writes rows `10000·t … 10000·t + 9999` of the result. The blocks tile the
  100000 rows, so after the call the result array is ONE function of the arrays the call found: entry `(r, c)` is
  `max (∑ₖ a(r,k)·Wl(k,c) + b(0,c) + ∑ₖ x(r,k)·Wr(k,c)) 0` — the layer as the host would spell it (`layer`).
-/
import proofs.«160314_j64587718197583_1_alg».proof.Proof.Gen.KernelIdeal.Frame
import proofs.«160314_j64587718197583_1_alg».proof.Proof.LibDense
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx LibDense
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays, in the host's spelling: the affine part, then the maximum with zero. -/
def layer (a x : FVec Ideal ⟨2, ![100000, 64]⟩ .f32) (Wl : FVec Ideal ⟨2, ![64, 64]⟩ .f32)
    (b : FVec Ideal ⟨2, ![1, 64]⟩ .f32) (Wr : FVec Ideal ⟨2, ![64, 64]⟩ .f32) : FVec Ideal ⟨2, ![100000, 64]⟩ .f32 :=
  maximumf (hostAffine (by decide) a x Wl b Wr)
    (broadcastInDim ⟨2, ![100000, 64]⟩ (![] : Fin 0 → Fin 2) (by decide) (constant ⟨0, ![]⟩ .f32 0x00000000#32))

/-- Entry `(r, c)` of the layer. -/
theorem layer_apply (a x : FVec Ideal ⟨2, ![100000, 64]⟩ .f32) (Wl : FVec Ideal ⟨2, ![64, 64]⟩ .f32)
    (b : FVec Ideal ⟨2, ![1, 64]⟩ .f32) (Wr : FVec Ideal ⟨2, ![64, 64]⟩ .f32) (r : Fin 100000) (c : Fin 64) :
    layer a x Wl b Wr (ix2 r c)
      = max (((∑ k : Fin 64, a (ix2 r k) * Wl (ix2 k c)) + b (ix2 0 c)) + ∑ k : Fin 64, x (ix2 r k) * Wr (ix2 k c)) 0 := by
  show max (hostAffine _ a x Wl b Wr (ix2 r c)) (Ideal.ofBits .f32 0x00000000#32) = _
  rw [hostAffine_apply, Ideal.ofBits_zero_f32]

/-- Entry `(r, c)` of what the body stores, from the blocks it loaded. -/
theorem pay_apply (v0 v3 : Vec Ideal S10000x64 .f32) (v5 v7 : Vec Ideal S64x64 .f32) (v12 : Vec Ideal S1x64 .f32)
    (r : Fin 10000) (c : Fin 64) :
    k2_pay1 v0 v3 v5 v7 v12 (ix2 r c)
      = max (((∑ k : Fin 64, v0 (ix2 r k) * v5 (ix2 k c)) + v12 (ix2 0 c)) + ∑ k : Fin 64, v3 (ix2 r k) * v7 (ix2 k c)) 0 := by
  unfold k2_pay1
  simp only [shapeCast_self]
  show max ((FloatOps.matmul (F := Ideal) (DotDims.plain 10000 64 64) none (φ₁ := .bf16) (φ₂ := .bf16) v0 v5
        (constant ⟨2, ![10000, 64]⟩ .f32 0x00000000#32) (ix2 r c)
      + FloatOps.matmul (F := Ideal) (DotDims.plain 10000 64 64) none (φ₁ := .bf16) (φ₂ := .bf16) v3 v7
        (constant ⟨2, ![10000, 64]⟩ .f32 0x00000000#32) (ix2 r c))
      + broadcastTo ⟨2, ![10000, 64]⟩ v12 broadcasts_S1x64_S10000x64 (ix2 r c)) (Ideal.ofBits .f32 0x00000000#32) = _
  rw [blockAffine_apply, Ideal.ofBits_zero_f32]

/-- The printed index maps, decided over the grid: the two row-blocked inputs and the output sit at block row `t`,
    column block 0; the weights and the bias row are whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `r` of block `t` is row `10000·t + r` of the array. -/
def row (t : Fin cfg2.N) (r : Fin 10000) : Fin 100000 :=
  ⟨t.val * 10000 + r.val, by
    have h : t.val < 10 := lt_of_lt_of_eq t.isLt (show cfg2.N = 10 from N_2)
    have := r.isLt; omega⟩

theorem emb5 (t : Fin cfg2.N) (r : Fin 10000) (c : Fin 64) :
    ((cfg2.win 5).blk t).view.emb (ix2 r c : S10000x64.Idx) = (ix2 (row t r) c : S100000x64.Idx) := by
  obtain ⟨e0, e1, e2, e3, e4, e5, e6, e7, e8, e9, e10, e11⟩ := idx_facts t
  funext a; apply Fin.ext
  match a with
  | ⟨0, _⟩ => show win2_5.index t (0 : Fin 2) * 10000 + 1 * r.val = t.val * 10000 + r.val; omega
  | ⟨1, _⟩ => show win2_5.index t (1 : Fin 2) * 64 + 1 * c.val = c.val; omega

theorem blk0 (c : Dev nD) (t : Fin cfg2.N) (r : Fin 10000) (k : Fin 64) :
    iblk2 V c 0 t (ix2 r k : S10000x64.Idx) = (V c main_v52 : S100000x64.Idx → EReal) (ix2 (row t r) k) := by
  obtain ⟨e0, e1, e2, e3, e4, e5, e6, e7, e8, e9, e10, e11⟩ := idx_facts t
  show V c main_v52 (((cfg2.win 0).blk t).view.emb (ix2 r k : S10000x64.Idx)) = _
  refine congrArg _ (funext fun a => Fin.ext ?_)
  match a with
  | ⟨0, _⟩ => show win2_0.index t (0 : Fin 2) * 10000 + 1 * r.val = t.val * 10000 + r.val; omega
  | ⟨1, _⟩ => show win2_0.index t (1 : Fin 2) * 64 + 1 * k.val = k.val; omega

theorem blk1 (c : Dev nD) (t : Fin cfg2.N) (r : Fin 10000) (k : Fin 64) :
    iblk2 V c 1 t (ix2 r k : S10000x64.Idx) = (V c main_v40 : S100000x64.Idx → EReal) (ix2 (row t r) k) := by
  obtain ⟨e0, e1, e2, e3, e4, e5, e6, e7, e8, e9, e10, e11⟩ := idx_facts t
  show V c main_v40 (((cfg2.win 1).blk t).view.emb (ix2 r k : S10000x64.Idx)) = _
  refine congrArg _ (funext fun a => Fin.ext ?_)
  match a with
  | ⟨0, _⟩ => show win2_1.index t (0 : Fin 2) * 10000 + 1 * r.val = t.val * 10000 + r.val; omega
  | ⟨1, _⟩ => show win2_1.index t (1 : Fin 2) * 64 + 1 * k.val = k.val; omega

theorem blk2 (c : Dev nD) (t : Fin cfg2.N) (k : Fin 64) (j : Fin 64) :
    iblk2 V c 2 t (ix2 k j : S64x64.Idx) = (V c main_arg8 : S64x64.Idx → EReal) (ix2 k j) := by
  obtain ⟨e0, e1, e2, e3, e4, e5, e6, e7, e8, e9, e10, e11⟩ := idx_facts t
  show V c main_arg8 (((cfg2.win 2).blk t).view.emb (ix2 k j : S64x64.Idx)) = _
  refine congrArg _ (funext fun a => Fin.ext ?_)
  match a with
  | ⟨0, _⟩ => show win2_2.index t (0 : Fin 2) * 64 + 1 * k.val = k.val; omega
  | ⟨1, _⟩ => show win2_2.index t (1 : Fin 2) * 64 + 1 * j.val = j.val; omega

theorem blk3 (c : Dev nD) (t : Fin cfg2.N) (j : Fin 64) :
    iblk2 V c 3 t (ix2 (0 : Fin 1) j : S1x64.Idx) = (V c main_v53 : S1x64.Idx → EReal) (ix2 0 j) := by
  obtain ⟨e0, e1, e2, e3, e4, e5, e6, e7, e8, e9, e10, e11⟩ := idx_facts t
  show V c main_v53 (((cfg2.win 3).blk t).view.emb (ix2 (0 : Fin 1) j : S1x64.Idx)) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * j.val = j.val; omega

theorem blk4 (c : Dev nD) (t : Fin cfg2.N) (k : Fin 64) (j : Fin 64) :
    iblk2 V c 4 t (ix2 k j : S64x64.Idx) = (V c main_arg10 : S64x64.Idx → EReal) (ix2 k j) := by
  obtain ⟨e0, e1, e2, e3, e4, e5, e6, e7, e8, e9, e10, e11⟩ := idx_facts t
  show V c main_arg10 (((cfg2.win 4).blk t).view.emb (ix2 k j : S64x64.Idx)) = _
  refine congrArg _ (funext fun a => Fin.ext ?_)
  match a with
  | ⟨0, _⟩ => show win2_4.index t (0 : Fin 2) * 64 + 1 * k.val = k.val; omega
  | ⟨1, _⟩ => show win2_4.index t (1 : Fin 2) * 64 + 1 * j.val = j.val; omega

/-- WHAT POINT `t` WRITES BACK is block `t` of the layer of the arrays the call found. -/
theorem flushed_eq (c : Dev nD) (t : Fin cfg2.N) :
    (dat2 V c).flushed 5 t = ((cfg2.win 5).blk t).view.read (Elt Ideal)
      (layer (V c main_v52) (V c main_v40) (V c main_arg8) (V c main_v53) (V c main_arg10)) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x64) hz, View.ld_unit_zero (S := S1x64) hz]
  funext j
  obtain ⟨r, cc, rfl⟩ : ∃ (r : Fin 10000) (cc : Fin 64), j = ix2 r cc := ⟨j 0, j 1, eq_ix2 j⟩
  show k2_pay1 (iblk2 V c 0 t) (iblk2 V c 1 t) (iblk2 V c 2 t) (iblk2 V c 4 t) (iblk2 V c 3 t) (ix2 r cc)
    = layer (V c main_v52) (V c main_v40) (V c main_arg8) (V c main_v53) (V c main_arg10)
        (((cfg2.win 5).blk t).view.emb (ix2 r cc : S10000x64.Idx))
  refine (pay_apply _ _ _ _ _ r cc).trans ?_
  rw [emb5]
  refine Eq.trans ?_ (layer_apply _ _ _ _ _ (row t r) cc).symm
  refine congrArg (fun z : EReal => max z 0) ?_
  refine congrArg₂ (· + ·) (congrArg₂ (· + ·) (Finset.sum_congr rfl fun k _ => ?_) ?_) (Finset.sum_congr rfl fun k _ => ?_)
  · exact congrArg₂ (· * ·) (blk0 V c t r k) (blk2 V c t k cc)
  · exact blk3 V c t cc
  · exact congrArg₂ (· * ·) (blk1 V c t r k) (blk4 V c t k cc)

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v54).slice (win2_5.rect t)).set ↔ _
  rw [View.set_slice_whole, Rect.mem_set_unit]
  exact Iff.rfl

/-- The ten blocks tile the rows: row `R` is in the block of point `R / 10000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 10000, lt_of_lt_of_eq (by omega : (i 0).val / 10000 < 10) (show cfg2.N = 10 from N_2).symm⟩
  obtain ⟨e0, e1, e2, e3, e4, e5, e6, e7, e8, e9, e10, e11⟩ := idx_facts t
  have ht : t.val = (i 0).val / 10000 := rfl
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- THE ARRAY after the call: the layer of the arrays the call found. -/
theorem final (c : Dev nD) : (dat2 V c).arrAt 5 cfg2.N
    = layer (V c main_v52) (V c main_v40) (V c main_arg8) (V c main_v53) (V c main_arg10) :=
  (dat2 V c).arrAt_eq_of_cover 5 _ (fun t _ => flushed_eq V c t) cover

end Cert.KernelIdeal.Region2

end
-- ==== Proof.Region3.lean ====
/-
  The fourth layer's dense part, as the kernel computes it.

  The pallas_call runs over ten row blocks of 10000 nodes. At block `t` its body multiplies the block's rows
  of the neighbour means and of the node features by the two 64×1 weight matrices, adds the two products and the bias
  row; it writes rows `10000·t … 10000·t + 9999` of the result. The blocks tile the
  100000 rows, so after the call the result array is ONE function of the arrays the call found: entry `(r, c)` is
  `∑ₖ a(r,k)·Wl(k,c) + b(0,c) + ∑ₖ x(r,k)·Wr(k,c)` — the layer as the host would spell it (`layer`).
-/
import proofs.«160314_j64587718197583_1_alg».proof.Proof.Gen.KernelIdeal.Frame
import proofs.«160314_j64587718197583_1_alg».proof.Proof.LibDense
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx LibDense
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer on whole arrays, in the host's spelling: the affine part alone (the last layer has no relu). -/
def layer (a x : FVec Ideal ⟨2, ![100000, 64]⟩ .f32) (Wl : FVec Ideal ⟨2, ![64, 1]⟩ .f32)
    (b : FVec Ideal ⟨2, ![1, 1]⟩ .f32) (Wr : FVec Ideal ⟨2, ![64, 1]⟩ .f32) : FVec Ideal ⟨2, ![100000, 1]⟩ .f32 :=
  hostAffine (by decide) a x Wl b Wr

/-- Entry `(r, c)` of the layer. -/
theorem layer_apply (a x : FVec Ideal ⟨2, ![100000, 64]⟩ .f32) (Wl : FVec Ideal ⟨2, ![64, 1]⟩ .f32)
    (b : FVec Ideal ⟨2, ![1, 1]⟩ .f32) (Wr : FVec Ideal ⟨2, ![64, 1]⟩ .f32) (r : Fin 100000) (c : Fin 1) :
    layer a x Wl b Wr (ix2 r c)
      = ((∑ k : Fin 64, a (ix2 r k) * Wl (ix2 k c)) + b (ix2 0 c)) + ∑ k : Fin 64, x (ix2 r k) * Wr (ix2 k c) := by
  exact hostAffine_apply _ a x Wl b Wr r c

/-- Entry `(r, c)` of what the body stores, from the blocks it loaded. -/
theorem pay_apply (v0 v3 : Vec Ideal S10000x64 .f32) (v5 v7 : Vec Ideal S64x1 .f32) (v12 : Vec Ideal S1x1 .f32)
    (r : Fin 10000) (c : Fin 1) :
    k3_pay1 v0 v3 v5 v7 v12 (ix2 r c)
      = ((∑ k : Fin 64, v0 (ix2 r k) * v5 (ix2 k c)) + v12 (ix2 0 c)) + ∑ k : Fin 64, v3 (ix2 r k) * v7 (ix2 k c) := by
  unfold k3_pay1
  simp only [shapeCast_self]
  show (FloatOps.matmul (F := Ideal) (DotDims.plain 10000 64 1) none (φ₁ := .bf16) (φ₂ := .bf16) v0 v5
        (constant ⟨2, ![10000, 1]⟩ .f32 0x00000000#32) (ix2 r c)
      + FloatOps.matmul (F := Ideal) (DotDims.plain 10000 64 1) none (φ₁ := .bf16) (φ₂ := .bf16) v3 v7
        (constant ⟨2, ![10000, 1]⟩ .f32 0x00000000#32) (ix2 r c))
      + broadcastTo ⟨2, ![10000, 1]⟩ v12 broadcasts_S1x1_S10000x1 (ix2 r c) = _
  rw [blockAffine_apply]

/-- The printed index maps, decided over the grid: the two row-blocked inputs and the output sit at block row `t`,
    column block 0; the weights and the bias row are whole. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `r` of block `t` is row `10000·t + r` of the array. -/
def row (t : Fin cfg3.N) (r : Fin 10000) : Fin 100000 :=
  ⟨t.val * 10000 + r.val, by
    have h : t.val < 10 := lt_of_lt_of_eq t.isLt (show cfg3.N = 10 from N_3)
    have := r.isLt; omega⟩

theorem emb5 (t : Fin cfg3.N) (r : Fin 10000) (c : Fin 1) :
    ((cfg3.win 5).blk t).view.emb (ix2 r c : S10000x1.Idx) = (ix2 (row t r) c : S100000x1.Idx) := by
  obtain ⟨e0, e1, e2, e3, e4, e5, e6, e7, e8, e9, e10, e11⟩ := idx_facts t
  funext a; apply Fin.ext
  match a with
  | ⟨0, _⟩ => show win3_5.index t (0 : Fin 2) * 10000 + 1 * r.val = t.val * 10000 + r.val; omega
  | ⟨1, _⟩ => show win3_5.index t (1 : Fin 2) * 1 + 1 * c.val = c.val; omega

theorem blk0 (c : Dev nD) (t : Fin cfg3.N) (r : Fin 10000) (k : Fin 64) :
    iblk3 V c 0 t (ix2 r k : S10000x64.Idx) = (V c main_v66 : S100000x64.Idx → EReal) (ix2 (row t r) k) := by
  obtain ⟨e0, e1, e2, e3, e4, e5, e6, e7, e8, e9, e10, e11⟩ := idx_facts t
  show V c main_v66 (((cfg3.win 0).blk t).view.emb (ix2 r k : S10000x64.Idx)) = _
  refine congrArg _ (funext fun a => Fin.ext ?_)
  match a with
  | ⟨0, _⟩ => show win3_0.index t (0 : Fin 2) * 10000 + 1 * r.val = t.val * 10000 + r.val; omega
  | ⟨1, _⟩ => show win3_0.index t (1 : Fin 2) * 64 + 1 * k.val = k.val; omega

theorem blk1 (c : Dev nD) (t : Fin cfg3.N) (r : Fin 10000) (k : Fin 64) :
    iblk3 V c 1 t (ix2 r k : S10000x64.Idx) = (V c main_v54 : S100000x64.Idx → EReal) (ix2 (row t r) k) := by
  obtain ⟨e0, e1, e2, e3, e4, e5, e6, e7, e8, e9, e10, e11⟩ := idx_facts t
  show V c main_v54 (((cfg3.win 1).blk t).view.emb (ix2 r k : S10000x64.Idx)) = _
  refine congrArg _ (funext fun a => Fin.ext ?_)
  match a with
  | ⟨0, _⟩ => show win3_1.index t (0 : Fin 2) * 10000 + 1 * r.val = t.val * 10000 + r.val; omega
  | ⟨1, _⟩ => show win3_1.index t (1 : Fin 2) * 64 + 1 * k.val = k.val; omega

theorem blk2 (c : Dev nD) (t : Fin cfg3.N) (k : Fin 64) (j : Fin 1) :
    iblk3 V c 2 t (ix2 k j : S64x1.Idx) = (V c main_arg11 : S64x1.Idx → EReal) (ix2 k j) := by
  obtain ⟨e0, e1, e2, e3, e4, e5, e6, e7, e8, e9, e10, e11⟩ := idx_facts t
  show V c main_arg11 (((cfg3.win 2).blk t).view.emb (ix2 k j : S64x1.Idx)) = _
  refine congrArg _ (funext fun a => Fin.ext ?_)
  match a with
  | ⟨0, _⟩ => show win3_2.index t (0 : Fin 2) * 64 + 1 * k.val = k.val; omega
  | ⟨1, _⟩ => show win3_2.index t (1 : Fin 2) * 1 + 1 * j.val = j.val; omega

theorem blk3 (c : Dev nD) (t : Fin cfg3.N) (j : Fin 1) :
    iblk3 V c 3 t (ix2 (0 : Fin 1) j : S1x1.Idx) = (V c main_v67 : S1x1.Idx → EReal) (ix2 0 j) := by
  obtain ⟨e0, e1, e2, e3, e4, e5, e6, e7, e8, e9, e10, e11⟩ := idx_facts t
  show V c main_v67 (((cfg3.win 3).blk t).view.emb (ix2 (0 : Fin 1) j : S1x1.Idx)) = _
  refine congrArg _ (funext fun a => Fin.ext ?_)
  match a with
  | ⟨0, _⟩ => show win3_3.index t (0 : Fin 2) * 1 + 1 * 0 = 0; omega
  | ⟨1, _⟩ => show win3_3.index t (1 : Fin 2) * 1 + 1 * j.val = j.val; omega

theorem blk4 (c : Dev nD) (t : Fin cfg3.N) (k : Fin 64) (j : Fin 1) :
    iblk3 V c 4 t (ix2 k j : S64x1.Idx) = (V c main_arg13 : S64x1.Idx → EReal) (ix2 k j) := by
  obtain ⟨e0, e1, e2, e3, e4, e5, e6, e7, e8, e9, e10, e11⟩ := idx_facts t
  show V c main_arg13 (((cfg3.win 4).blk t).view.emb (ix2 k j : S64x1.Idx)) = _
  refine congrArg _ (funext fun a => Fin.ext ?_)
  match a with
  | ⟨0, _⟩ => show win3_4.index t (0 : Fin 2) * 64 + 1 * k.val = k.val; omega
  | ⟨1, _⟩ => show win3_4.index t (1 : Fin 2) * 1 + 1 * j.val = j.val; omega

/-- WHAT POINT `t` WRITES BACK is block `t` of the layer of the arrays the call found. -/
theorem flushed_eq (c : Dev nD) (t : Fin cfg3.N) :
    (dat3 V c).flushed 5 t = ((cfg3.win 5).blk t).view.read (Elt Ideal)
      (layer (V c main_v66) (V c main_v54) (V c main_arg11) (V c main_v67) (V c main_arg13)) := by
  show (cfg3.win 5).cut (grid3.coords t) ((dat3 V c).after 5 t) = _
  rw [after3_5]
  unfold out3_5
  rw [View.canon_unit_zero hz]
  simp only [View.ld_unit_zero (S := S10000x64) hz, View.ld_unit_zero (S := S64x1) hz, View.ld_unit_zero (S := S1x1) hz]
  funext j
  obtain ⟨r, cc, rfl⟩ : ∃ (r : Fin 10000) (cc : Fin 1), j = ix2 r cc := ⟨j 0, j 1, eq_ix2 j⟩
  show k3_pay1 (iblk3 V c 0 t) (iblk3 V c 1 t) (iblk3 V c 2 t) (iblk3 V c 4 t) (iblk3 V c 3 t) (ix2 r cc)
    = layer (V c main_v66) (V c main_v54) (V c main_arg11) (V c main_v67) (V c main_arg13)
        (((cfg3.win 5).blk t).view.emb (ix2 r cc : S10000x1.Idx))
  refine (pay_apply _ _ _ _ _ r cc).trans ?_
  rw [emb5]
  refine Eq.trans ?_ (layer_apply _ _ _ _ _ (row t r) cc).symm
  refine congrArg₂ (· + ·) (congrArg₂ (· + ·) (Finset.sum_congr rfl fun k _ => ?_) ?_) (Finset.sum_congr rfl fun k _ => ?_)
  · exact congrArg₂ (· * ·) (blk0 V c t r k) (blk2 V c t k cc)
  · exact blk3 V c t cc
  · exact congrArg₂ (· * ·) (blk1 V c t r k) (blk4 V c t k cc)

/-- An index of the result array is in point `t`'s block iff each coordinate is in the block's range on its axis. -/
theorem mem_blk (t : Fin cfg3.N) (i : S100000x1.Idx) :
    i ∈ ((cfg3.win 5).blk t).view.set ↔ ∀ a : Fin 2, win3_5.index t a * S10000x1.size a ≤ (i a).val ∧ (i a).val < win3_5.index t a * S10000x1.size a + S10000x1.size a := by
  show i ∈ ((View.whole main_v68).slice (win3_5.rect t)).set ↔ _
  rw [View.set_slice_whole, Rect.mem_set_unit]
  exact Iff.rfl

/-- The ten blocks tile the rows: row `R` is in the block of point `R / 10000`. -/
theorem cover (i : S100000x1.Idx) : ∃ t : Fin cfg3.N, (cfg3.win 5).flush t = true ∧ i ∈ ((cfg3.win 5).blk t).view.set := by
  have hi0 : (i 0).val < 100000 := (i 0).isLt
  have hi1 : (i 1).val < 1 := (i 1).isLt
  let t : Fin cfg3.N := ⟨(i 0).val / 10000, lt_of_lt_of_eq (by omega : (i 0).val / 10000 < 10) (show cfg3.N = 10 from N_3).symm⟩
  obtain ⟨e0, e1, e2, e3, e4, e5, e6, e7, e8, e9, e10, e11⟩ := idx_facts t
  have ht : t.val = (i 0).val / 10000 := rfl
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 1 ≤ (i 1).val ∧ (i 1).val < win3_5.index t (1 : Fin 2) * 1 + 1; omega

/-- THE ARRAY after the call: the layer of the arrays the call found. -/
theorem final (c : Dev nD) : (dat3 V c).arrAt 5 cfg3.N
    = layer (V c main_v66) (V c main_v54) (V c main_arg11) (V c main_v67) (V c main_arg13) :=
  (dat3 V c).arrAt_eq_of_cover 5 _ (fun t _ => flushed_eq V c t) cover

end Cert.KernelIdeal.Region3

end
-- ==== Proof.Chain.lean ====
/-
  The kernel's buffers, boundary by boundary, are the reference's stages.

  Between the pallas_calls the kernel's @main applies to the edge list and to the previous layer's output the very
  operations the reference applies: the row numbers of sources and targets, the in-degree by a scatter-add of ones, its
  clamped reciprocal, and per layer the gather of source rows, their scatter-add onto target rows and the scaling by the
  reciprocal degree. Each pallas_call's result array is the layer's dense part of the arrays it found (the four region
  modules), which is the reference's product–bias–product(–relu) stage by unfolding; the bias row the kernel's caller
  makes by a reshape and the reference by a broadcast are one row. So at every segment boundary each buffer that matters
  later holds the reference's stage of the same name of the argument arrays, and at the end the result buffer holds the
  reference's result stage.
-/
import proofs.«160314_j64587718197583_1_alg».proof.Proof.Gen.KernelIdeal.Frame
import proofs.«160314_j64587718197583_1_alg».proof.Proof.Gen.ReferenceIdeal.Read
import proofs.«160314_j64587718197583_1_alg».proof.Proof.LibDense
import proofs.«160314_j64587718197583_1_alg».proof.Proof.Region0
import proofs.«160314_j64587718197583_1_alg».proof.Proof.Region1
import proofs.«160314_j64587718197583_1_alg».proof.Proof.Region2
import proofs.«160314_j64587718197583_1_alg».proof.Proof.Region3
import Idealize.ShloMosaic.Lib.StableHlo.Run

set_option maxRecDepth 16384
set_option maxHeartbeats 4000000

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo
open LibDense

variable (m : (ℓ : Loc nD τ sig) → Buf (Elt Ideal) ℓ) (ρ : Dev nD → PrngReg) (c : Dev nD)

/-! ## After the first host stretch: the edge rows, the reciprocal degree, the first layer's neighbour means, the bias row -/

theorem w1_v1 : W1 m ρ c (Proc.devRef .tc main_v1) = val_main_v1 (F := Ideal) (m ((c : Thread nD τ).loc main_arg1)) := by
  show StableHlo.after hostOps0 _ _ = _
  after_results_simp <;> rfl

theorem w1_v3 : W1 m ρ c (Proc.devRef .tc main_v3) = val_main_v3 (F := Ideal) (m ((c : Thread nD τ).loc main_arg1)) := by
  show StableHlo.after hostOps0 _ _ = _
  after_results_simp <;> rfl

theorem w1_v12 : W1 m ρ c (Proc.devRef .tc main_v12) = val_main_v12 (F := Ideal) (m ((c : Thread nD τ).loc main_arg1)) := by
  show StableHlo.after hostOps0 _ _ = _
  after_results_simp <;> rfl

theorem w1_v24 : W1 m ρ c (Proc.devRef .tc main_v24) = val_main_v24 (F := Ideal) (m ((c : Thread nD τ).loc main_arg0)) (m ((c : Thread nD τ).loc main_arg1)) := by
  show StableHlo.after hostOps0 _ _ = _
  after_results_simp <;> rfl

theorem w1_arg0 : W1 m ρ c (Proc.devRef .tc main_arg0) = (m ((c : Thread nD τ).loc main_arg0)) := by
  show StableHlo.after hostOps0 _ _ = _
  after_results_simp <;> rfl

theorem w1_arg2 : W1 m ρ c (Proc.devRef .tc main_arg2) = (m ((c : Thread nD τ).loc main_arg2)) := by
  show StableHlo.after hostOps0 _ _ = _
  after_results_simp <;> rfl

theorem w1_arg4 : W1 m ρ c (Proc.devRef .tc main_arg4) = (m ((c : Thread nD τ).loc main_arg4)) := by
  show StableHlo.after hostOps0 _ _ = _
  after_results_simp <;> rfl

theorem w1_arg5 : W1 m ρ c (Proc.devRef .tc main_arg5) = (m ((c : Thread nD τ).loc main_arg5)) := by
  show StableHlo.after hostOps0 _ _ = _
  after_results_simp <;> rfl

theorem w1_arg6 : W1 m ρ c (Proc.devRef .tc main_arg6) = (m ((c : Thread nD τ).loc main_arg6)) := by
  show StableHlo.after hostOps0 _ _ = _
  after_results_simp <;> rfl

theorem w1_arg7 : W1 m ρ c (Proc.devRef .tc main_arg7) = (m ((c : Thread nD τ).loc main_arg7)) := by
  show StableHlo.after hostOps0 _ _ = _
  after_results_simp <;> rfl

theorem w1_arg8 : W1 m ρ c (Proc.devRef .tc main_arg8) = (m ((c : Thread nD τ).loc main_arg8)) := by
  show StableHlo.after hostOps0 _ _ = _
  after_results_simp <;> rfl

theorem w1_arg9 : W1 m ρ c (Proc.devRef .tc main_arg9) = (m ((c : Thread nD τ).loc main_arg9)) := by
  show StableHlo.after hostOps0 _ _ = _
  after_results_simp <;> rfl

theorem w1_arg10 : W1 m ρ c (Proc.devRef .tc main_arg10) = (m ((c : Thread nD τ).loc main_arg10)) := by
  show StableHlo.after hostOps0 _ _ = _
  after_results_simp <;> rfl

theorem w1_arg11 : W1 m ρ c (Proc.devRef .tc main_arg11) = (m ((c : Thread nD τ).loc main_arg11)) := by
  show StableHlo.after hostOps0 _ _ = _
  after_results_simp <;> rfl

theorem w1_arg12 : W1 m ρ c (Proc.devRef .tc main_arg12) = (m ((c : Thread nD τ).loc main_arg12)) := by
  show StableHlo.after hostOps0 _ _ = _
  after_results_simp <;> rfl

theorem w1_arg13 : W1 m ρ c (Proc.devRef .tc main_arg13) = (m ((c : Thread nD τ).loc main_arg13)) := by
  show StableHlo.after hostOps0 _ _ = _
  after_results_simp <;> rfl

theorem w1_v25 : W1 m ρ c (Proc.devRef .tc main_v25) = val_main_v26 (F := Ideal) (m ((c : Thread nD τ).loc main_arg3)) := by
  show StableHlo.after hostOps0 _ _ = _
  after_results_simp
  exact rowOfVec_eq (N := 64) shapeCasts_S64_S1x64 Cert.ReferenceIdeal.Gen.bcast_S64_S1x64_1 (m ((c : Thread nD τ).loc main_arg3))

/-! ## After the first pallas_call -/

theorem w2_v26 : W2 m ρ c (Proc.devRef .tc main_v26) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Region0.final (V1 m ρ) c).trans ?_)
  rw [show V1 m ρ c main_v24 = _ from w1_v24 m ρ c,
    show V1 m ρ c main_arg0 = _ from w1_arg0 m ρ c,
    show V1 m ρ c main_arg2 = _ from w1_arg2 m ρ c,
    show V1 m ρ c main_v25 = _ from w1_v25 m ρ c,
    show V1 m ρ c main_arg4 = _ from w1_arg4 m ρ c]
  rfl

theorem w2_v1 : W2 m ρ c (Proc.devRef .tc main_v1) = val_main_v1 (F := Ideal) (m ((c : Thread nD τ).loc main_arg1)) :=
  (W2_of_ne m ρ c main_v1 (by decide)).trans (w1_v1 m ρ c)

theorem w2_v3 : W2 m ρ c (Proc.devRef .tc main_v3) = val_main_v3 (F := Ideal) (m ((c : Thread nD τ).loc main_arg1)) :=
  (W2_of_ne m ρ c main_v3 (by decide)).trans (w1_v3 m ρ c)

theorem w2_v12 : W2 m ρ c (Proc.devRef .tc main_v12) = val_main_v12 (F := Ideal) (m ((c : Thread nD τ).loc main_arg1)) :=
  (W2_of_ne m ρ c main_v12 (by decide)).trans (w1_v12 m ρ c)

theorem w2_arg5 : W2 m ρ c (Proc.devRef .tc main_arg5) = (m ((c : Thread nD τ).loc main_arg5)) :=
  (W2_of_ne m ρ c main_arg5 (by decide)).trans (w1_arg5 m ρ c)

theorem w2_arg6 : W2 m ρ c (Proc.devRef .tc main_arg6) = (m ((c : Thread nD τ).loc main_arg6)) :=
  (W2_of_ne m ρ c main_arg6 (by decide)).trans (w1_arg6 m ρ c)

theorem w2_arg7 : W2 m ρ c (Proc.devRef .tc main_arg7) = (m ((c : Thread nD τ).loc main_arg7)) :=
  (W2_of_ne m ρ c main_arg7 (by decide)).trans (w1_arg7 m ρ c)

theorem w2_arg8 : W2 m ρ c (Proc.devRef .tc main_arg8) = (m ((c : Thread nD τ).loc main_arg8)) :=
  (W2_of_ne m ρ c main_arg8 (by decide)).trans (w1_arg8 m ρ c)

theorem w2_arg9 : W2 m ρ c (Proc.devRef .tc main_arg9) = (m ((c : Thread nD τ).loc main_arg9)) :=
  (W2_of_ne m ρ c main_arg9 (by decide)).trans (w1_arg9 m ρ c)

theorem w2_arg10 : W2 m ρ c (Proc.devRef .tc main_arg10) = (m ((c : Thread nD τ).loc main_arg10)) :=
  (W2_of_ne m ρ c main_arg10 (by decide)).trans (w1_arg10 m ρ c)

theorem w2_arg11 : W2 m ρ c (Proc.devRef .tc main_arg11) = (m ((c : Thread nD τ).loc main_arg11)) :=
  (W2_of_ne m ρ c main_arg11 (by decide)).trans (w1_arg11 m ρ c)

theorem w2_arg12 : W2 m ρ c (Proc.devRef .tc main_arg12) = (m ((c : Thread nD τ).loc main_arg12)) :=
  (W2_of_ne m ρ c main_arg12 (by decide)).trans (w1_arg12 m ρ c)

theorem w2_arg13 : W2 m ρ c (Proc.devRef .tc main_arg13) = (m ((c : Thread nD τ).loc main_arg13)) :=
  (W2_of_ne m ρ c main_arg13 (by decide)).trans (w1_arg13 m ρ c)

/-! ## After the second host stretch -/

theorem w3_v38 : W3 m ρ c (Proc.devRef .tc main_v38) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 _ _ = _
  after_results_simp
  rw [w2_v26 m ρ c, w2_v1 m ρ c, w2_v3 m ρ c, w2_v12 m ρ c]
  rfl

theorem w3_v39 : W3 m ρ c (Proc.devRef .tc main_v39) = val_main_v45 (F := Ideal) (m ((c : Thread nD τ).loc main_arg6)) := by
  show StableHlo.after hostOps1 _ _ = _
  after_results_simp
  rw [w2_arg6 m ρ c]
  exact rowOfVec_eq (N := 64) shapeCasts_S64_S1x64 Cert.ReferenceIdeal.Gen.bcast_S64_S1x64_1 (m ((c : Thread nD τ).loc main_arg6))

theorem w3_v26 : W3 m ρ c (Proc.devRef .tc main_v26) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 _ _ = _
  after_results_simp
  exact w2_v26 m ρ c

theorem w3_v1 : W3 m ρ c (Proc.devRef .tc main_v1) = val_main_v1 (F := Ideal) (m ((c : Thread nD τ).loc main_arg1)) := by
  show StableHlo.after hostOps1 _ _ = _
  after_results_simp
  exact w2_v1 m ρ c

theorem w3_v3 : W3 m ρ c (Proc.devRef .tc main_v3) = val_main_v3 (F := Ideal) (m ((c : Thread nD τ).loc main_arg1)) := by
  show StableHlo.after hostOps1 _ _ = _
  after_results_simp
  exact w2_v3 m ρ c

theorem w3_v12 : W3 m ρ c (Proc.devRef .tc main_v12) = val_main_v12 (F := Ideal) (m ((c : Thread nD τ).loc main_arg1)) := by
  show StableHlo.after hostOps1 _ _ = _
  after_results_simp
  exact w2_v12 m ρ c

theorem w3_arg5 : W3 m ρ c (Proc.devRef .tc main_arg5) = (m ((c : Thread nD τ).loc main_arg5)) := by
  show StableHlo.after hostOps1 _ _ = _
  after_results_simp
  exact w2_arg5 m ρ c

theorem w3_arg7 : W3 m ρ c (Proc.devRef .tc main_arg7) = (m ((c : Thread nD τ).loc main_arg7)) := by
  show StableHlo.after hostOps1 _ _ = _
  after_results_simp
  exact w2_arg7 m ρ c

theorem w3_arg8 : W3 m ρ c (Proc.devRef .tc main_arg8) = (m ((c : Thread nD τ).loc main_arg8)) := by
  show StableHlo.after hostOps1 _ _ = _
  after_results_simp
  exact w2_arg8 m ρ c

theorem w3_arg9 : W3 m ρ c (Proc.devRef .tc main_arg9) = (m ((c : Thread nD τ).loc main_arg9)) := by
  show StableHlo.after hostOps1 _ _ = _
  after_results_simp
  exact w2_arg9 m ρ c

theorem w3_arg10 : W3 m ρ c (Proc.devRef .tc main_arg10) = (m ((c : Thread nD τ).loc main_arg10)) := by
  show StableHlo.after hostOps1 _ _ = _
  after_results_simp
  exact w2_arg10 m ρ c

theorem w3_arg11 : W3 m ρ c (Proc.devRef .tc main_arg11) = (m ((c : Thread nD τ).loc main_arg11)) := by
  show StableHlo.after hostOps1 _ _ = _
  after_results_simp
  exact w2_arg11 m ρ c

theorem w3_arg12 : W3 m ρ c (Proc.devRef .tc main_arg12) = (m ((c : Thread nD τ).loc main_arg12)) := by
  show StableHlo.after hostOps1 _ _ = _
  after_results_simp
  exact w2_arg12 m ρ c

theorem w3_arg13 : W3 m ρ c (Proc.devRef .tc main_arg13) = (m ((c : Thread nD τ).loc main_arg13)) := by
  show StableHlo.after hostOps1 _ _ = _
  after_results_simp
  exact w2_arg13 m ρ c

/-! ## After the second pallas_call -/

theorem w4_v40 : W4 m ρ c (Proc.devRef .tc main_v40) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Region1.final (V3 m ρ) c).trans ?_)
  rw [show V3 m ρ c main_v38 = _ from w3_v38 m ρ c,
    show V3 m ρ c main_v26 = _ from w3_v26 m ρ c,
    show V3 m ρ c main_arg5 = _ from w3_arg5 m ρ c,
    show V3 m ρ c main_v39 = _ from w3_v39 m ρ c,
    show V3 m ρ c main_arg7 = _ from w3_arg7 m ρ c]
  rfl

theorem w4_v1 : W4 m ρ c (Proc.devRef .tc main_v1) = val_main_v1 (F := Ideal) (m ((c : Thread nD τ).loc main_arg1)) :=
  (W4_of_ne m ρ c main_v1 (by decide)).trans (w3_v1 m ρ c)

theorem w4_v3 : W4 m ρ c (Proc.devRef .tc main_v3) = val_main_v3 (F := Ideal) (m ((c : Thread nD τ).loc main_arg1)) :=
  (W4_of_ne m ρ c main_v3 (by decide)).trans (w3_v3 m ρ c)

theorem w4_v12 : W4 m ρ c (Proc.devRef .tc main_v12) = val_main_v12 (F := Ideal) (m ((c : Thread nD τ).loc main_arg1)) :=
  (W4_of_ne m ρ c main_v12 (by decide)).trans (w3_v12 m ρ c)

theorem w4_arg8 : W4 m ρ c (Proc.devRef .tc main_arg8) = (m ((c : Thread nD τ).loc main_arg8)) :=
  (W4_of_ne m ρ c main_arg8 (by decide)).trans (w3_arg8 m ρ c)

theorem w4_arg9 : W4 m ρ c (Proc.devRef .tc main_arg9) = (m ((c : Thread nD τ).loc main_arg9)) :=
  (W4_of_ne m ρ c main_arg9 (by decide)).trans (w3_arg9 m ρ c)

theorem w4_arg10 : W4 m ρ c (Proc.devRef .tc main_arg10) = (m ((c : Thread nD τ).loc main_arg10)) :=
  (W4_of_ne m ρ c main_arg10 (by decide)).trans (w3_arg10 m ρ c)

theorem w4_arg11 : W4 m ρ c (Proc.devRef .tc main_arg11) = (m ((c : Thread nD τ).loc main_arg11)) :=
  (W4_of_ne m ρ c main_arg11 (by decide)).trans (w3_arg11 m ρ c)

theorem w4_arg12 : W4 m ρ c (Proc.devRef .tc main_arg12) = (m ((c : Thread nD τ).loc main_arg12)) :=
  (W4_of_ne m ρ c main_arg12 (by decide)).trans (w3_arg12 m ρ c)

theorem w4_arg13 : W4 m ρ c (Proc.devRef .tc main_arg13) = (m ((c : Thread nD τ).loc main_arg13)) :=
  (W4_of_ne m ρ c main_arg13 (by decide)).trans (w3_arg13 m ρ c)

/-! ## After the third host stretch -/

theorem w5_v52 : W5 m ρ c (Proc.devRef .tc main_v52) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 _ _ = _
  after_results_simp
  rw [w4_v40 m ρ c, w4_v1 m ρ c, w4_v3 m ρ c, w4_v12 m ρ c]
  rfl

theorem w5_v53 : W5 m ρ c (Proc.devRef .tc main_v53) = val_main_v64 (F := Ideal) (m ((c : Thread nD τ).loc main_arg9)) := by
  show StableHlo.after hostOps2 _ _ = _
  after_results_simp
  rw [w4_arg9 m ρ c]
  exact rowOfVec_eq (N := 64) shapeCasts_S64_S1x64 Cert.ReferenceIdeal.Gen.bcast_S64_S1x64_1 (m ((c : Thread nD τ).loc main_arg9))

theorem w5_v40 : W5 m ρ c (Proc.devRef .tc main_v40) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 _ _ = _
  after_results_simp
  exact w4_v40 m ρ c

theorem w5_v1 : W5 m ρ c (Proc.devRef .tc main_v1) = val_main_v1 (F := Ideal) (m ((c : Thread nD τ).loc main_arg1)) := by
  show StableHlo.after hostOps2 _ _ = _
  after_results_simp
  exact w4_v1 m ρ c

theorem w5_v3 : W5 m ρ c (Proc.devRef .tc main_v3) = val_main_v3 (F := Ideal) (m ((c : Thread nD τ).loc main_arg1)) := by
  show StableHlo.after hostOps2 _ _ = _
  after_results_simp
  exact w4_v3 m ρ c

theorem w5_v12 : W5 m ρ c (Proc.devRef .tc main_v12) = val_main_v12 (F := Ideal) (m ((c : Thread nD τ).loc main_arg1)) := by
  show StableHlo.after hostOps2 _ _ = _
  after_results_simp
  exact w4_v12 m ρ c

theorem w5_arg8 : W5 m ρ c (Proc.devRef .tc main_arg8) = (m ((c : Thread nD τ).loc main_arg8)) := by
  show StableHlo.after hostOps2 _ _ = _
  after_results_simp
  exact w4_arg8 m ρ c

theorem w5_arg10 : W5 m ρ c (Proc.devRef .tc main_arg10) = (m ((c : Thread nD τ).loc main_arg10)) := by
  show StableHlo.after hostOps2 _ _ = _
  after_results_simp
  exact w4_arg10 m ρ c

theorem w5_arg11 : W5 m ρ c (Proc.devRef .tc main_arg11) = (m ((c : Thread nD τ).loc main_arg11)) := by
  show StableHlo.after hostOps2 _ _ = _
  after_results_simp
  exact w4_arg11 m ρ c

theorem w5_arg12 : W5 m ρ c (Proc.devRef .tc main_arg12) = (m ((c : Thread nD τ).loc main_arg12)) := by
  show StableHlo.after hostOps2 _ _ = _
  after_results_simp
  exact w4_arg12 m ρ c

theorem w5_arg13 : W5 m ρ c (Proc.devRef .tc main_arg13) = (m ((c : Thread nD τ).loc main_arg13)) := by
  show StableHlo.after hostOps2 _ _ = _
  after_results_simp
  exact w4_arg13 m ρ c

/-! ## After the third pallas_call -/

theorem w6_v54 : W6 m ρ c (Proc.devRef .tc main_v54) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((Region2.final (V5 m ρ) c).trans ?_)
  rw [show V5 m ρ c main_v52 = _ from w5_v52 m ρ c,
    show V5 m ρ c main_v40 = _ from w5_v40 m ρ c,
    show V5 m ρ c main_arg8 = _ from w5_arg8 m ρ c,
    show V5 m ρ c main_v53 = _ from w5_v53 m ρ c,
    show V5 m ρ c main_arg10 = _ from w5_arg10 m ρ c]
  rfl

theorem w6_v1 : W6 m ρ c (Proc.devRef .tc main_v1) = val_main_v1 (F := Ideal) (m ((c : Thread nD τ).loc main_arg1)) :=
  (W6_of_ne m ρ c main_v1 (by decide)).trans (w5_v1 m ρ c)

theorem w6_v3 : W6 m ρ c (Proc.devRef .tc main_v3) = val_main_v3 (F := Ideal) (m ((c : Thread nD τ).loc main_arg1)) :=
  (W6_of_ne m ρ c main_v3 (by decide)).trans (w5_v3 m ρ c)

theorem w6_v12 : W6 m ρ c (Proc.devRef .tc main_v12) = val_main_v12 (F := Ideal) (m ((c : Thread nD τ).loc main_arg1)) :=
  (W6_of_ne m ρ c main_v12 (by decide)).trans (w5_v12 m ρ c)

theorem w6_arg11 : W6 m ρ c (Proc.devRef .tc main_arg11) = (m ((c : Thread nD τ).loc main_arg11)) :=
  (W6_of_ne m ρ c main_arg11 (by decide)).trans (w5_arg11 m ρ c)

theorem w6_arg12 : W6 m ρ c (Proc.devRef .tc main_arg12) = (m ((c : Thread nD τ).loc main_arg12)) :=
  (W6_of_ne m ρ c main_arg12 (by decide)).trans (w5_arg12 m ρ c)

theorem w6_arg13 : W6 m ρ c (Proc.devRef .tc main_arg13) = (m ((c : Thread nD τ).loc main_arg13)) :=
  (W6_of_ne m ρ c main_arg13 (by decide)).trans (w5_arg13 m ρ c)

/-! ## After the fourth host stretch -/

theorem w7_v66 : W7 m ρ c (Proc.devRef .tc main_v66) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 _ _ = _
  after_results_simp
  rw [w6_v54 m ρ c, w6_v1 m ρ c, w6_v3 m ρ c, w6_v12 m ρ c]
  rfl

theorem w7_v67 : W7 m ρ c (Proc.devRef .tc main_v67) = val_main_v83 (F := Ideal) (m ((c : Thread nD τ).loc main_arg12)) := by
  show StableHlo.after hostOps3 _ _ = _
  after_results_simp
  rw [w6_arg12 m ρ c]
  exact rowOfVec_eq (N := 1) shapeCasts_S1_S1x1 Cert.ReferenceIdeal.Gen.bcast_S1_S1x1_1 (m ((c : Thread nD τ).loc main_arg12))

theorem w7_v54 : W7 m ρ c (Proc.devRef .tc main_v54) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 _ _ = _
  after_results_simp
  exact w6_v54 m ρ c

theorem w7_arg11 : W7 m ρ c (Proc.devRef .tc main_arg11) = (m ((c : Thread nD τ).loc main_arg11)) := by
  show StableHlo.after hostOps3 _ _ = _
  after_results_simp
  exact w6_arg11 m ρ c

theorem w7_arg13 : W7 m ρ c (Proc.devRef .tc main_arg13) = (m ((c : Thread nD τ).loc main_arg13)) := by
  show StableHlo.after hostOps3 _ _ = _
  after_results_simp
  exact w6_arg13 m ρ c

/-! ## After the fourth pallas_call, and the final reshape -/

theorem w8_v68 : W8 m ρ c (Proc.devRef .tc main_v68) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 5).trans ((Region3.final (V7 m ρ) c).trans ?_)
  rw [show V7 m ρ c main_v66 = _ from w7_v66 m ρ c,
    show V7 m ρ c main_v54 = _ from w7_v54 m ρ c,
    show V7 m ρ c main_arg11 = _ from w7_arg11 m ρ c,
    show V7 m ρ c main_v67 = _ from w7_v67 m ρ c,
    show V7 m ρ c main_arg13 = _ from w7_arg13 m ρ c]
  rfl

/-- The result buffer ends at the reference's result stage of the argument arrays. -/
theorem w9_v69 : W9 m ρ c (Proc.devRef .tc main_v69) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps4 _ _ = _
  after_results_simp
  rw [w8_v68 m ρ c]
  rfl

end Cert.KernelIdeal.Chain

end
-- ==== Proof.lean ====
/-
  A four-layer graph network (stacked mean-aggregation layers) as a kernel program and as its plain reference, equal
  over the extended reals.

  Both programs compute, from node features `x`, an edge list and four triples of weights,
    deg = scatter-add of ones onto the edges' target rows,  w = 1 / max(deg, 1),
    per layer:  a = (scatter-add onto target rows of the gathered source rows of h) · w,
                h' = a · Wl + b + h · Wr,  followed by max(·, 0) in all layers but the last,
  and return the last layer's column as a vector. The gather, the scatter-adds and the scaling are the same host
  operations in both programs. They differ only in the dense part of each layer: the reference computes it on the host as
  `(a · Wl + b) + h · Wr`, the kernel in a pallas_call over ten blocks of 10000 rows as `(a · Wl + h · Wr) + b`, each
  block with operands passed through a narrower float format — the identity at the ideal instance. Entry by entry both are
  `∑ₖ a(r,k)·Wl(k,c) + b(c) + ∑ₖ h(r,k)·Wr(k,c)`, in two groupings of one sum: addition on the extended reals is
  commutative and associative, so no finiteness of the inputs is used.

  The modules: the dense products read at an index, generic in the sizes (LibDense); each pallas_call's result array as
  the layer's dense part of the arrays it found (Region0 … Region3); the kernel's run with the result buffer named
  (KernelRun); the kernel's buffers at every segment boundary as the reference's stages (Chain). Here: the frames, the
  (empty) list of idealization steps, and the two runs side by side.
-/
import proofs.«160314_j64587718197583_1_alg».proof.Defs
import proofs.«160314_j64587718197583_1_alg».proof.Proof.Gen.Kernel
import proofs.«160314_j64587718197583_1_alg».proof.Proof.Gen.Kernel.Frame
import proofs.«160314_j64587718197583_1_alg».proof.Proof.Gen.KernelIdeal
import proofs.«160314_j64587718197583_1_alg».proof.Proof.Gen.KernelIdeal.Frame
import proofs.«160314_j64587718197583_1_alg».proof.Proof.Gen.ReferenceIdeal
import proofs.«160314_j64587718197583_1_alg».proof.Proof.Gen.ReferenceIdeal.Run
import proofs.«160314_j64587718197583_1_alg».proof.Proof.Gen.ReferenceIdeal.Read
import proofs.«160314_j64587718197583_1_alg».proof.Proof.Gen.Pre_finite_inputs
import proofs.«160314_j64587718197583_1_alg».proof.Proof.KernelRun
import proofs.«160314_j64587718197583_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs, and leaves its arguments as launched. -/
theorem frame_k : Cert.frame_Kernel := fun m ρ _ => Cert.Kernel.Gen.frame m ρ

/-- So does the kernel program read at the ideal instance. -/
theorem frame_ki : Cert.frame_KernelIdeal := fun m ρ _ => Cert.KernelIdeal.Gen.frame m ρ

/-- The reference has no pallas_call: its run is its host operations in order, and the frame is that run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result stage of those arguments: the
    kernel's result buffer by the chain of segment boundaries, the reference's by its generated run. -/
theorem algebraic : Cert.algebraic_KernelIdeal_ReferenceIdeal := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Chain.w9_v69 m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v88_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
